-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x768 : Shape := ⟨3, ![1, 50000, 768]⟩
abbrev S768x768 : Shape := ⟨2, ![768, 768]⟩
abbrev S768 : Shape := ⟨1, ![768]⟩
abbrev S128x768 : Shape := ⟨2, ![128, 768]⟩
abbrev S1x128 : Shape := ⟨2, ![1, 128]⟩
abbrev S_ : Shape := ⟨0, ![]⟩

class Facts : Prop where
  bcast_S_S1x50000x768 : S_.BroadcastsInDim S1x50000x768 (![] : Fin 0 → Fin S1x50000x768.rank)
  reducesTo_S1x50000x768_S_d0_1_2 : S1x50000x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S128x768 : S_.BroadcastsInDim S128x768 (![] : Fin 0 → Fin S128x768.rank)
  reducesTo_S128x768_S_d0_1 : S128x768.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S128x768 .f32) (main_arg5 : FVec F S1x128 .f32) (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  let main_v19 : FVec F S128x768 .f32 := Host.absf main_arg4
  let main_cst_6 : FVec F S_ .f32 := constant S_ .f32 0x7F800000#32
  let main_v20 : FVec F S128x768 .f32 := broadcastInDim S128x768 ![] bcast_S_S128x768 main_cst_6
  let main_v21 : IVec S128x768 1 := cmpf .olt main_v19 main_v20
  let main_c_7 : IVec S_ 1 := constantI S_ 1 1#1
  let main_v22 : IVec S_ 1 := (fun x v => Host.reduce IntOp.andi x v reducesTo_S128x768_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S1x50000x768 .f32) (main_arg1 : FVec F S768x768 .f32) (main_arg2 : FVec F S768 .f32) (main_arg3 : FVec F S128x768 .f32) (main_arg4 : FVec F S128x768 .f32) (main_arg5 : FVec F S1x128 .f32) : IVec S_ 1 :=
  let main_v0 : FVec F S1x50000x768 .f32 := Host.absf main_arg0
  let main_cst : FVec F S_ .f32 := constant S_ .f32 0x7F800000#32
  let main_v1 : FVec F S1x50000x768 .f32 := broadcastInDim S1x50000x768 ![] bcast_S_S1x50000x768 main_cst
  let main_v2 : IVec S1x50000x768 1 := cmpf .olt main_v0 main_v1
  let main_c : IVec S_ 1 := constantI S_ 1 1#1
  let main_v3 : IVec S_ 1 := (fun x v => Host.reduce IntOp.andi x v reducesTo_S1x50000x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S128x768 .f32 := Host.absf main_arg3
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_arg4 main_arg5 main_v13 main_v16
-- ==== Kernel.lean ====
abbrev S1x50000x768 : Shape := ⟨3, ![1, 50000, 768]⟩
abbrev S768x768 : Shape := ⟨2, ![768, 768]⟩
abbrev S768 : Shape := ⟨1, ![768]⟩
abbrev S128x768 : Shape := ⟨2, ![128, 768]⟩
abbrev S1x128 : Shape := ⟨2, ![1, 128]⟩
abbrev S768x128 : Shape := ⟨2, ![768, 128]⟩
abbrev S768x256 : Shape := ⟨2, ![768, 256]⟩
abbrev S128x1 : Shape := ⟨2, ![128, 1]⟩
abbrev S1x768 : Shape := ⟨2, ![1, 768]⟩
abbrev S2x1x1 : Shape := ⟨3, ![2, 1, 1]⟩
abbrev S2x1x768 : Shape := ⟨3, ![2, 1, 768]⟩
abbrev S1x1000x768 : Shape := ⟨3, ![1, 1000, 768]⟩
abbrev S1x1x1 : Shape := ⟨3, ![1, 1, 1]⟩
abbrev S1x1x768 : Shape := ⟨3, ![1, 1, 768]⟩
abbrev S1x1 : Shape := ⟨2, ![1, 1]⟩
abbrev S1000x768 : Shape := ⟨2, ![1000, 768]⟩
abbrev S1000x256 : Shape := ⟨2, ![1000, 256]⟩
abbrev S1000x128 : Shape := ⟨2, ![1000, 128]⟩
abbrev S1000x1 : Shape := ⟨2, ![1000, 1]⟩
abbrev S1 : Shape := ⟨1, ![1]⟩
abbrev S_ : Shape := ⟨0, ![]⟩

abbrev nBuf : Space → Nat
  | .hbm => 46
  | .vmem => 15
  | .smem => 0
  | _ => 0

abbrev bufTy : (tb : Table) → Fin (tcTables nBuf tb) → BufTy
  | .hbm, ⟨0, _⟩ => ⟨S1x50000x768, .f32⟩
  | .hbm, ⟨1, _⟩ => ⟨S768x768, .f32⟩
  | .hbm, ⟨2, _⟩ => ⟨S768, .f32⟩
  | .hbm, ⟨3, _⟩ => ⟨S128x768, .f32⟩
  | .hbm, ⟨4, _⟩ => ⟨S128x768, .f32⟩
  | .hbm, ⟨5, _⟩ => ⟨S1x128, .f32⟩
  | .hbm, ⟨6, _⟩ => ⟨S768x768, .f32⟩
  | .hbm, ⟨7, _⟩ => ⟨S768x768, .bf16⟩
  | .hbm, ⟨8, _⟩ => ⟨S768x128, .f32⟩
  | .hbm, ⟨9, _⟩ => ⟨S768x128, .f32⟩
  | .hbm, ⟨10, _⟩ => ⟨S768x256, .f32⟩
  | .hbm, ⟨11, _⟩ => ⟨S768x256, .bf16⟩
  | .hbm, ⟨12, _⟩ => ⟨S128x1, .f32⟩
  | .hbm, ⟨13, _⟩ => ⟨S128x1, .bf16⟩
  | .hbm, ⟨14, _⟩ => ⟨S1x768, .f32⟩
  | .hbm, ⟨15, _⟩ => ⟨S2x1x1, .f32⟩
  | .hbm, ⟨16, _⟩ => ⟨S2x1x1, .f32⟩
  | .hbm, ⟨17, _⟩ => ⟨S2x1x768, .f32⟩
  | .hbm, ⟨18, _⟩ => ⟨S1x1x1, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S1x1x1, .f32⟩
  | .hbm, ⟨23, _⟩ => ⟨S_, .f32⟩
  | .hbm, ⟨24, _⟩ => ⟨S1x1x1, .f32⟩
  | .hbm, ⟨25, _⟩ => ⟨S_, .f32⟩
  | .hbm, ⟨26, _⟩ => ⟨S1x1x768, .f32⟩
  | .hbm, ⟨27, _⟩ => ⟨S768, .f32⟩
  | .hbm, ⟨28, _⟩ => ⟨S1x1x768, .f32⟩
  | .hbm, ⟨29, _⟩ => ⟨S768, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S768, .f32⟩
  | .hbm, ⟨39, _⟩ => ⟨S768, .f32⟩
  | .hbm, ⟨40, _⟩ => ⟨S768, .f32⟩
  | .hbm, ⟨41, _⟩ => ⟨S768, .f32⟩
  | .hbm, ⟨42, _⟩ => ⟨S768, .f32⟩
  | .hbm, ⟨43, _⟩ => ⟨S768, .f32⟩
  | .hbm, ⟨44, _⟩ => ⟨S768, .f32⟩
  | .hbm, ⟨45, _⟩ => ⟨S1x768, .f32⟩
  | .local _ .vmem, ⟨0, _⟩ => ⟨S1x1000x768, .f32⟩
  | .local _ .vmem, ⟨1, _⟩ => ⟨S1x1000x768, .f32⟩
  | .local _ .vmem, ⟨2, _⟩ => ⟨S768x768, .bf16⟩
  | .local _ .vmem, ⟨3, _⟩ => ⟨S1x768, .f32⟩
  | .local _ .vmem, ⟨4, _⟩ => ⟨S768x256, .bf16⟩
  | .local _ .vmem, ⟨5, _⟩ => ⟨S128x1, .bf16⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x768, .f32⟩
  | .local _ .vmem, ⟨11, _⟩ => ⟨S1x1x768, .f32⟩
  | .local _ .vmem, ⟨12, _⟩ => ⟨S1x1, .f32⟩
  | .local _ .vmem, ⟨13, _⟩ => ⟨S1x1, .f32⟩
  | .local _ .vmem, ⟨14, _⟩ => ⟨S1x768, .f32⟩
  | _, _ => ⟨S1x50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v60 : BitVec 1 := Scalar.cmpi .eq arg1 c24_i32
  let v61 : BitVec 32 := Scalar.extui v60
  let c0_i32_30 : BitVec 32 := 0#32
  let v62 : BitVec 1 := Scalar.cmpi .ne v61 c0_i32_30
  v62

def cc0_transform_0 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S768x768_S768x768_1_0 : S768x768.Transposes [1, 0] S768x768
  bitsLt_bf16_f32 : FTy.bits .bf16 < FTy.bits .f32
  transposes_S128x768_S768x128_1_0 : S128x768.Transposes [1, 0] S768x128
  concatenates_S768x128_S768x128_S768x256_d1 : Shape.Concatenates [S768x128, S768x128] S768x256 1
  transposes_S1x128_S128x1_1_0 : S1x128.Transposes [1, 0] S128x1
  shapeCasts_S768_S1x768 : S768.ShapeCasts S1x768
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1x1000x768_S1x1000x768_0_0_0 : ∀ a, (![0, 0, 0] : Fin 3 → Nat) a + S1x1000x768.size a ≤ S1x1000x768.size a
  h_S1x1000x768 : 0 < S1x1000x768.numel
  shapeCasts_S1x1000x768_S1000x768 : S1x1000x768.ShapeCasts S1000x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  broadcasts_S1x768_S1000x768 : S1x768.Broadcasts S1000x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  slices_S1000x256_o0_0_S1000x128 : S1000x256.Slices ![0, 0] S1000x128
  slices_S1000x256_o0_128_S1000x128 : S1000x256.Slices ![0, 128] S1000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S1000x1_S1 : S1000x1.Reduces [0] S1
  shapeCasts_S1_S1x1 : S1.ShapeCasts S1x1
  broadcasts_S1x1_S1000x1 : S1x1.Broadcasts S1000x1
  broadcasts_S1x1_S1x768 : S1x1.Broadcasts S1x768
  broadcasts_S1000x1_S1000x768 : S1000x1.Broadcasts S1000x768
  reduces_S1000x768_S768 : S1000x768.Reduces [0] S768
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x768_S1x1x768 : S1x768.ShapeCasts S1x1x768
  inb_S1x1x768_S1x1x768_0_0_0 : ∀ a, (![0, 0, 0] : Fin 3 → Nat) a + S1x1x768.size a ≤ S1x1x768.size a
  h_S1x1x768 : 0 < S1x1x768.numel
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  slices_S2x1x768_S1x1x768_0_0_0 : S2x1x768.Slices ![0, 0, 0] S1x1x768
  shapeCasts_S1x1x768_S768 : S1x1x768.ShapeCasts S768
  slices_S2x1x768_S1x1x768_1_0_0 : S2x1x768.Slices ![1, 0, 0] S1x1x768
  bcast_S_S768 : S_.BroadcastsInDim S768 (![] : Fin 0 → Fin S768.rank)
  dot_S1000x768_S768x768_S1000x768_1_0_0_1_n_n_wf : DotDims.WF S1000x768 S768x768 S1000x768 [1] [0] [0] [1] [] []
  dot_S1000x768_S768x256_S1000x256_1_0_0_1_n_n_wf : DotDims.WF S1000x768 S768x256 S1000x256 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x768.size a ≤ S1x50000x768.size a
  hwx0_0 : ∀ i : grid0.Coords, EltTy.bits .f32 = 32 ∨ (Rect.block (s := S1x50000x768) S1x1000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .bf16 = 32 ∨ (Rect.block (s := S768x256) S768x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .bf16 = 32 ∨ (Rect.block (s := S128x1) S128x1.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x768.size a ≤ S2x1x768.size a
  hwx0_7 : ∀ i : grid0.Coords, EltTy.bits .f32 = 32 ∨ (Rect.block (s := S2x1x768) S1x1x768.size (cc0_transform_7 i) (hinb0_7 i)).WholeWords (EltTy.packing .f32)

variable [Facts₀]

def dot_S1000x768_S768x768_S1000x768_1_0_0_1_n_n : DotDims S1000x768 S768x768 S1000x768 where
  lhsContracting := [1]
  rhsContracting := [0]
  lhsNonContracting := [0]
  rhsNonContracting := [1]
  lhsBatch := []
  rhsBatch := []
  wf := dot_S1000x768_S768x768_S1000x768_1_0_0_1_n_n_wf
def dot_S1000x768_S768x256_S1000x256_1_0_0_1_n_n : DotDims S1000x768 S768x256 S1000x256 where
  lhsContracting := [1]
  rhsContracting := [0]
  lhsNonContracting := [0]
  rhsNonContracting := [1]
  lhsBatch := []
  rhsBatch := []
  wf := dot_S1000x768_S768x256_S1000x256_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S1x1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S1x1x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1x50000x768 : Shape := ⟨3, ![1, 50000, 768]⟩
abbrev S768x768 : Shape := ⟨2, ![768, 768]⟩
abbrev S768 : Shape := ⟨1, ![768]⟩
abbrev S128x768 : Shape := ⟨2, ![128, 768]⟩
abbrev S1x128 : Shape := ⟨2, ![1, 128]⟩
abbrev S50000x768 : Shape := ⟨2, ![50000, 768]⟩
abbrev S1x768 : Shape := ⟨2, ![1, 768]⟩
abbrev S_ : Shape := ⟨0, ![]⟩
abbrev S50000x128 : Shape := ⟨2, ![50000, 128]⟩
abbrev S1x50000 : Shape := ⟨2, ![1, 50000]⟩
abbrev S1 : Shape := ⟨1, ![1]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x50000x768, .f32⟩
  | .hbm, ⟨1, _⟩ => ⟨S768x768, .f32⟩
  | .hbm, ⟨2, _⟩ => ⟨S768, .f32⟩
  | .hbm, ⟨3, _⟩ => ⟨S128x768, .f32⟩
  | .hbm, ⟨4, _⟩ => ⟨S128x768, .f32⟩
  | .hbm, ⟨5, _⟩ => ⟨S1x128, .f32⟩
  | .hbm, ⟨6, _⟩ => ⟨S50000x768, .f32⟩
  | .hbm, ⟨7, _⟩ => ⟨S50000x768, .f32⟩
  | .hbm, ⟨8, _⟩ => ⟨S1x768, .f32⟩
  | .hbm, ⟨9, _⟩ => ⟨S50000x768, .f32⟩
  | .hbm, ⟨10, _⟩ => ⟨S50000x768, .f32⟩
  | .hbm, ⟨11, _⟩ => ⟨S_, .f32⟩
  | .hbm, ⟨12, _⟩ => ⟨S50000x768, .f32⟩
  | .hbm, ⟨13, _⟩ => ⟨S50000x768, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x50000, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S1x1, .f32⟩
  | .hbm, ⟨35, _⟩ => ⟨S1x50000, .f32⟩
  | .hbm, ⟨36, _⟩ => ⟨S1x50000, .f32⟩
  | .hbm, ⟨37, _⟩ => ⟨S1x50000, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S1x50000, .f32⟩
  | .hbm, ⟨42, _⟩ => ⟨S1x50000, .f32⟩
  | .hbm, ⟨43, _⟩ => ⟨S1x768, .f32⟩
  | _, _ => ⟨S1x50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  shapeCasts_S1x50000x768_S50000x768 : S1x50000x768.ShapeCasts S50000x768
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  bcast_S_S50000x768 : S_.BroadcastsInDim S50000x768 (![] : Fin 0 → Fin S50000x768.rank)
  bcast_S_S50000x128 : S_.BroadcastsInDim S50000x128 (![] : Fin 0 → Fin S50000x128.rank)
  reducesTo_S1x50000_S1_d1 : S1x50000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x50000_0_1 : S1x1.BroadcastsInDim S1x50000 (![0, 1] : Fin 2 → Fin S1x50000.rank)
  dot_S50000x768_S768x768_S50000x768_1_1_0_0_n_n_wf : DotDims.WF S50000x768 S768x768 S50000x768 [1] [1] [0] [0] [] []
  dot_S50000x768_S128x768_S50000x128_1_1_0_0_n_n_wf : DotDims.WF S50000x768 S128x768 S50000x128 [1] [1] [0] [0] [] []
  dot_S1x128_S50000x128_S1x50000_1_1_0_0_n_n_wf : DotDims.WF S1x128 S50000x128 S1x50000 [1] [1] [0] [0] [] []
  dot_S1x50000_S50000x768_S1x768_1_0_0_1_n_n_wf : DotDims.WF S1x50000 S50000x768 S1x768 [1] [0] [0] [1] [] []

variable [Facts₀]

def dot_S50000x768_S768x768_S50000x768_1_1_0_0_n_n : DotDims S50000x768 S768x768 S50000x768 where
  lhsContracting := [1]
  rhsContracting := [1]
  lhsNonContracting := [0]
  rhsNonContracting := [0]
  lhsBatch := []
  rhsBatch := []
  wf := dot_S50000x768_S768x768_S50000x768_1_1_0_0_n_n_wf
def dot_S50000x768_S128x768_S50000x128_1_1_0_0_n_n : DotDims S50000x768 S128x768 S50000x128 where
  lhsContracting := [1]
  rhsContracting := [1]
  lhsNonContracting := [0]
  rhsNonContracting := [0]
  lhsBatch := []
  rhsBatch := []
  wf := dot_S50000x768_S128x768_S50000x128_1_1_0_0_n_n_wf
def dot_S1x128_S50000x128_S1x50000_1_1_0_0_n_n : DotDims S1x128 S50000x128 S1x50000 where
  lhsContracting := [1]
  rhsContracting := [1]
  lhsNonContracting := [0]
  rhsNonContracting := [0]
  lhsBatch := []
  rhsBatch := []
  wf := dot_S1x128_S50000x128_S1x50000_1_1_0_0_n_n_wf
def dot_S1x50000_S50000x768_S1x768_1_0_0_1_n_n : DotDims S1x50000 S50000x768 S1x768 where
  lhsContracting := [1]
  rhsContracting := [0]
  lhsNonContracting := [0]
  rhsNonContracting := [1]
  lhsBatch := []
  rhsBatch := []
  wf := dot_S1x50000_S50000x768_S1x768_1_0_0_1_n_n_wf

class Facts : Prop extends Facts₀ where

variable [Facts]
-- ==== Proof.LibOnlineSoftmax.lean ====
/-
  Softmax-weighted pooling of the rows of a bag, and its computation in one pass with a running shift (the running
  maximum, sum and weighted sum of an online softmax). Independent of any program: it imports only the extended reals'
  operations.

  For logits z and features h over rows n, the pooled value is (Σ e^(z n − μ) · h n) / (Σ e^(z n − μ)); it does not
  depend on the shift μ, because changing μ to μ' multiplies numerator and denominator by the same e^(μ − μ') > 0.
  A one-pass computation keeps a shift μ and the two sums over the rows seen so far; taking in a further block of rows
  with a new shift μ' rescales the old sums by e^(μ − μ') and adds the block's terms. Two such partial states over
  disjoint row ranges are merged the same way. All of this is arithmetic of real numbers; the last part of the file
  carries sums, maxima and the exponential between the reals and the extended reals.
-/
import Idealize.ShloMosaic.PureOps.Ideal

noncomputable section

namespace Cert.Pool

open Idealize.ShloMosaic

/-! ## Partial sums over a range of rows, with a shift -/

/-- Σ over rows a ≤ n < b of e^(z n − μ). -/
def lsum (z : ℕ → ℝ) (a b : ℕ) (μ : ℝ) : ℝ := ∑ n ∈ Finset.Ico a b, Real.exp (z n - μ)

/-- Σ over rows a ≤ n < b of e^(z n − μ) · h n. -/
def wsum (z h : ℕ → ℝ) (a b : ℕ) (μ : ℝ) : ℝ := ∑ n ∈ Finset.Ico a b, Real.exp (z n - μ) * h n

theorem lsum_rescale (z : ℕ → ℝ) (a b : ℕ) (μ μ' : ℝ) : Real.exp (μ - μ') * lsum z a b μ = lsum z a b μ' := by
  unfold lsum
  rw [Finset.mul_sum]
  refine Finset.sum_congr rfl fun n _ => ?_
  rw [← Real.exp_add]
  congr 1
  ring

theorem wsum_rescale (z h : ℕ → ℝ) (a b : ℕ) (μ μ' : ℝ) : Real.exp (μ - μ') * wsum z h a b μ = wsum z h a b μ' := by
  unfold wsum
  rw [Finset.mul_sum]
  refine Finset.sum_congr rfl fun n _ => ?_
  rw [← mul_assoc, ← Real.exp_add]
  congr 2
  ring

theorem lsum_pos (z : ℕ → ℝ) {a b : ℕ} (hab : a < b) (μ : ℝ) : 0 < lsum z a b μ :=
  Finset.sum_pos (fun _ _ => Real.exp_pos _) ⟨a, Finset.mem_Ico.mpr ⟨le_refl a, hab⟩⟩

/-- A block of B rows b, b+1, …, b+B−1 as a sum over the block's own positions. -/
theorem block_sum (g : ℕ → ℝ) (b B : ℕ) : ∑ r : Fin B, g (b + r.val) = ∑ n ∈ Finset.Ico b (b + B), g n := by
  rw [Finset.sum_Ico_eq_sum_range, Nat.add_sub_cancel_left, Finset.sum_range]

/-- ONE STEP: the sums over rows a ≤ n < b at shift μ, rescaled to the shift μ', plus the block of B rows from b. -/
theorem lsum_step (z : ℕ → ℝ) {a b : ℕ} (hab : a ≤ b) (B : ℕ) (μ μ' : ℝ) :
    Real.exp (μ - μ') * lsum z a b μ + ∑ r : Fin B, Real.exp (z (b + r.val) - μ') = lsum z a (b + B) μ' := by
  rw [lsum_rescale, block_sum (fun n => Real.exp (z n - μ')) b B]
  exact Finset.sum_Ico_consecutive _ hab (Nat.le_add_right b B)

theorem wsum_step (z h : ℕ → ℝ) {a b : ℕ} (hab : a ≤ b) (B : ℕ) (μ μ' : ℝ) :
    Real.exp (μ - μ') * wsum z h a b μ + ∑ r : Fin B, Real.exp (z (b + r.val) - μ') * h (b + r.val)
      = wsum z h a (b + B) μ' := by
  rw [wsum_rescale, block_sum (fun n => Real.exp (z n - μ') * h n) b B]
  exact Finset.sum_Ico_consecutive _ hab (Nat.le_add_right b B)

/-- The first block: nothing before it. -/
theorem lsum_first (z : ℕ → ℝ) (b B : ℕ) (μ' : ℝ) :
    ∑ r : Fin B, Real.exp (z (b + r.val) - μ') = lsum z b (b + B) μ' :=
  block_sum (fun n => Real.exp (z n - μ')) b B

theorem wsum_first (z h : ℕ → ℝ) (b B : ℕ) (μ' : ℝ) :
    ∑ r : Fin B, Real.exp (z (b + r.val) - μ') * h (b + r.val) = wsum z h b (b + B) μ' :=
  block_sum (fun n => Real.exp (z n - μ') * h n) b B

/-- MERGING two partial states over adjacent ranges, each at its own shift, at a common shift μ. -/
theorem lsum_merge (z : ℕ → ℝ) {a b c : ℕ} (hab : a ≤ b) (hbc : b ≤ c) (μ₀ μ₁ μ : ℝ) :
    Real.exp (μ₀ - μ) * lsum z a b μ₀ + Real.exp (μ₁ - μ) * lsum z b c μ₁ = lsum z a c μ := by
  rw [lsum_rescale, lsum_rescale]
  exact Finset.sum_Ico_consecutive _ hab hbc

theorem wsum_merge (z h : ℕ → ℝ) {a b c : ℕ} (hab : a ≤ b) (hbc : b ≤ c) (μ₀ μ₁ μ : ℝ) :
    Real.exp (μ₀ - μ) * wsum z h a b μ₀ + Real.exp (μ₁ - μ) * wsum z h b c μ₁ = wsum z h a c μ := by
  rw [wsum_rescale, wsum_rescale]
  exact Finset.sum_Ico_consecutive _ hab hbc

/-- The pooled value does not depend on the shift. -/
theorem pool_shift (z h : ℕ → ℝ) (a b : ℕ) (μ μ' : ℝ) :
    wsum z h a b μ / lsum z a b μ = wsum z h a b μ' / lsum z a b μ' := by
  rw [← wsum_rescale z h a b μ μ', ← lsum_rescale z a b μ μ', mul_div_mul_left _ _ (Real.exp_pos _).ne']

/-- Normalizing each weight first and summing afterwards gives the same pooled value. -/
theorem pool_normalized (z h : ℕ → ℝ) (a b : ℕ) (μ : ℝ) :
    ∑ n ∈ Finset.Ico a b, Real.exp (z n - μ) / lsum z a b μ * h n = wsum z h a b μ / lsum z a b μ := by
  unfold wsum
  rw [Finset.sum_div]
  refine Finset.sum_congr rfl fun n _ => ?_
  ring

/-! ## Between the reals and the extended reals -/

theorem coe_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The running maximum, started from −∞, of finitely many real numbers — at least one — is a real number. -/
theorem exists_real_fold_max {ι : Type} (s : Finset ι) (hs : s.Nonempty) (f : ι → ℝ) :
    ∃ r : ℝ, s.fold max (⊥ : EReal) (fun k => (f k : EReal)) = (r : EReal) := by
  classical
  have key : ∀ t : Finset ι, (t = ∅ ∧ t.fold max (⊥ : EReal) (fun k => (f k : EReal)) = ⊥)
      ∨ ∃ r : ℝ, t.fold max (⊥ : EReal) (fun k => (f k : EReal)) = (r : EReal) := by
    intro t
    induction t using Finset.induction_on with
    | empty => exact Or.inl ⟨rfl, Finset.fold_empty⟩
    | insert a t ha ih =>
      refine Or.inr ?_
      rw [Finset.fold_insert ha]
      rcases ih with ⟨_, h⟩ | ⟨r, h⟩
      · exact ⟨f a, by rw [h, max_bot_right]⟩
      · exact ⟨max (f a) r, by rw [h, coe_max]⟩
  rcases key s with ⟨h, _⟩ | h
  · exact absurd h hs.ne_empty
  · exact h

/-- A quotient of real numbers by a nonzero real, taken on the extended reals, is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  ring

end Cert.Pool

end
-- ==== Proof.PoolNet.lean ====
/-
  The bag's per-row quantities as functions of the six argument arrays, over the extended reals, and the pooled result.

  Row n of the bag has features F(n, e) = max(Σ_d x(n,d)·W(e,d) + b(e), 0) and the logit
  z(n) = Σ_k max(Σ_d F(n,d)·A(k,d), 0) · σ(Σ_d F(n,d)·B(k,d)) · c(k). When every argument entry is a real number, so are
  all of these; the pooled result for feature e is then Σ_n e^(z n)·F(n,e) / Σ_n e^(z n), a real number.
-/
import proofs.«161586_j65197603554154_2_alg».proof.Proof.LibOnlineSoftmax
import Idealize.ShloMosaic.Lib.ValueIdx

noncomputable section

namespace Cert.Pool

open Idealize.ShloMosaic Idealize.ShloMosaic.ValueIdx

/-! ## Extended reals that are real numbers -/

/-- An extended real that is a real number. -/
def IsReal (x : EReal) : Prop := ∃ r : ℝ, x = (r : EReal)

theorem IsReal.eq_coe_toReal {x : EReal} (h : IsReal x) : x = ((x.toReal : ℝ) : EReal) := by
  obtain ⟨r, rfl⟩ := h
  rw [EReal.toReal_coe]

theorem isReal_coe (r : ℝ) : IsReal (r : EReal) := ⟨r, rfl⟩

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, coe_max a b⟩

theorem IsReal.logistic {x : EReal} (hx : IsReal x) : IsReal (Ideal.logistic x) := by
  obtain ⟨a, rfl⟩ := hx
  exact ⟨_, Ideal.logistic_coe a⟩

theorem isReal_sum {ι : Type} (s : Finset ι) (f : ι → EReal) (h : ∀ k ∈ s, IsReal (f k)) : IsReal (∑ k ∈ s, f k) := by
  refine ⟨∑ k ∈ s, (f k).toReal, ?_⟩
  rw [coe_sum]
  exact Finset.sum_congr rfl fun k hk => (h k hk).eq_coe_toReal

/-! ## The rows' features and logits -/

abbrev SX : Shape := ⟨3, ![1, 50000, 768]⟩
abbrev SW : Shape := ⟨2, ![768, 768]⟩
abbrev SB : Shape := ⟨1, ![768]⟩
abbrev SA : Shape := ⟨2, ![128, 768]⟩
abbrev SC : Shape := ⟨2, ![1, 128]⟩

section
variable (X : SX.Idx → EReal) (W : SW.Idx → EReal) (B : SB.Idx → EReal) (Wa Wb : SA.Idx → EReal) (Wc : SC.Idx → EReal)

/-- Feature e of row n. -/
def feat (n : Fin 50000) (e : Fin 768) : EReal :=
  max (∑ d : Fin 768, X (ix3 (0 : Fin 1) n d) * W (ix2 e d) + B (ix1 e)) 0

/-- The gated attention value k of row n. -/
def gate (n : Fin 50000) (k : Fin 128) : EReal :=
  max (∑ d : Fin 768, feat X W B n d * Wa (ix2 k d)) 0 * Ideal.logistic (∑ d : Fin 768, feat X W B n d * Wb (ix2 k d))

/-- The logit of row n. -/
def logit (n : Fin 50000) : EReal := ∑ k : Fin 128, gate X W B Wa Wb n k * Wc (ix2 (0 : Fin 1) k)

/-- Every argument entry is a real number. -/
structure Finite : Prop where
  x : ∀ i, IsReal (X i)
  w : ∀ i, IsReal (W i)
  b : ∀ i, IsReal (B i)
  wa : ∀ i, IsReal (Wa i)
  wb : ∀ i, IsReal (Wb i)
  wc : ∀ i, IsReal (Wc i)

variable {X W B Wa Wb Wc}

theorem isReal_feat (h : Finite X W B Wa Wb Wc) (n : Fin 50000) (e : Fin 768) : IsReal (feat X W B n e) :=
  (((isReal_sum _ _ fun d _ => (h.x _).mul (h.w _))).add (h.b _)).max isReal_zero

theorem isReal_gate (h : Finite X W B Wa Wb Wc) (n : Fin 50000) (k : Fin 128) : IsReal (gate X W B Wa Wb n k) :=
  ((isReal_sum _ _ fun d _ => (isReal_feat h n d).mul (h.wa _)).max isReal_zero).mul
    (isReal_sum _ _ fun d _ => (isReal_feat h n d).mul (h.wb _)).logistic

theorem isReal_logit (h : Finite X W B Wa Wb Wc) (n : Fin 50000) : IsReal (logit X W B Wa Wb Wc n) :=
  isReal_sum _ _ fun k _ => (isReal_gate h n k).mul (h.wc _)

variable (X W B Wa Wb Wc)

/-- The logits as real numbers, indexed by the row's number (0 past the bag). -/
def zR (n : ℕ) : ℝ := if h : n < 50000 then (logit X W B Wa Wb Wc ⟨n, h⟩).toReal else 0

/-- The features as real numbers, indexed by the row's number (0 past the bag). -/
def hR (e : Fin 768) (n : ℕ) : ℝ := if h : n < 50000 then (feat X W B ⟨n, h⟩ e).toReal else 0

/-- THE POOLED RESULT for feature e. -/
def pooled (e : Fin 768) : EReal :=
  ((wsum (zR X W B Wa Wb Wc) (hR X W B e) 0 50000 0 / lsum (zR X W B Wa Wb Wc) 0 50000 0 : ℝ) : EReal)

variable {X W B Wa Wb Wc}

theorem logit_eq (h : Finite X W B Wa Wb Wc) (n : Fin 50000) :
    logit X W B Wa Wb Wc n = ((zR X W B Wa Wb Wc n.val : ℝ) : EReal) := by
  unfold zR
  rw [dif_pos n.isLt]
  exact (isReal_logit h n).eq_coe_toReal

theorem feat_eq (h : Finite X W B Wa Wb Wc) (n : Fin 50000) (e : Fin 768) :
    feat X W B n e = ((hR X W B e n.val : ℝ) : EReal) := by
  unfold hR
  rw [dif_pos n.isLt]
  exact (isReal_feat h n e).eq_coe_toReal

end

end Cert.Pool

end
-- ==== Proof.PreFinite.lean ====
/-
  The precondition says that every entry of every argument is a real number: it states, for each argument array, that
  |x| < +∞ holds at every index, and over the extended reals that excludes exactly the two infinities.
-/
import proofs.«161586_j65197603554154_2_alg».proof.Pre_finite_inputs
import proofs.«161586_j65197603554154_2_alg».proof.Proof.Gen.Pre_finite_inputs
import proofs.«161586_j65197603554154_2_alg».proof.Proof.PoolNet
import Idealize.ShloMosaic.Lib.ReduceAll
import Idealize.ShloMosaic.Lib.Affine
import Idealize.ShloMosaic.PureOps.Ideal.Laws

noncomputable section

namespace Cert.Pre_finite_inputs.Real

open Cert.Pre_finite_inputs Idealize.ShloMosaic Cert.Pool

instance : Subsingleton S_.Idx := ⟨fun a b => funext fun d => d.elim0⟩

/-- An extended real whose absolute value is below +∞ is a real number. -/
theorem elt (x : EReal)
    (h : FloatOps.cmpf (F := Ideal) (φ := .f32) .olt (FloatOps.hostAbsf x) (FloatOps.ofBits .f32 0x7F800000#32) = 1#1) :
    IsReal x := by
  induction x using EReal.rec with
  | bot => exfalso; revert h; simp [Ideal.cmpf_def, Ideal.cmp, Ideal.ofBits, Ideal.ieee, Ideal.absf_def]
  | top => exfalso; revert h; simp [Ideal.cmpf_def, Ideal.cmp, Ideal.ofBits, Ideal.ieee, Ideal.absf_def]
  | coe r => exact isReal_coe r

/-- The precondition's conjunction, taken apart: all six arrays hold real numbers only. -/
theorem finite_of_pre (x0 : FVec Ideal S1x50000x768 .f32) (x1 : FVec Ideal S768x768 .f32) (x2 : FVec Ideal S768 .f32)
    (x3 x4 : FVec Ideal S128x768 .f32) (x5 : FVec Ideal S1x128 .f32)
    (h : fn (F := Ideal) x0 x1 x2 x3 x4 x5 = fun _ => 1#1) : Finite x0 x1 x2 x3 x4 x5 := by
  have h' := congrFun h ValueIdx.ix0
  dsimp only [fn, fn_part1] at h'
  obtain ⟨g4, e5⟩ := IntOp.andi_eq_one.mp h'
  obtain ⟨g3, e4⟩ := IntOp.andi_eq_one.mp g4
  obtain ⟨g2, e3⟩ := IntOp.andi_eq_one.mp g3
  obtain ⟨g1, e2⟩ := IntOp.andi_eq_one.mp g2
  obtain ⟨e0, e1⟩ := IntOp.andi_eq_one.mp g1
  exact ⟨fun i => elt (x0 i) (Host.reduce_andi_all _ _ _ _ _ e0 i), fun i => elt (x1 i) (Host.reduce_andi_all _ _ _ _ _ e1 i),
    fun i => elt (x2 i) (Host.reduce_andi_all _ _ _ _ _ e2 i), fun i => elt (x3 i) (Host.reduce_andi_all _ _ _ _ _ e3 i),
    fun i => elt (x4 i) (Host.reduce_andi_all _ _ _ _ _ e4 i), fun i => elt (x5 i) (Host.reduce_andi_all _ _ _ _ _ e5 i)⟩

end Cert.Pre_finite_inputs.Real

end
-- ==== Proof.LibHostLogistic.lean ====
/-
  The logistic function and the swish as a host program spells them, and a bias vector added to every row of a matrix,
  read at an index over the extended reals. Independent of any program.

  A host program may spell σ(z) out as 1 / (1 + e^(-z)) in four elementwise operations — negate, exponential, add,
  divide — with the scalar 1.0 broadcast to the array's shape; the swish is z times that. Over the extended reals the f32 word of
  1.0 denotes 1, and `Ideal.logistic z` is by definition `Ideal.div 1 (1 + Ideal.exp (-z))`: so the spelt-out quotient
  IS the logistic function at every index, infinities included. A bias vector [f] broadcast to the row [1, f] and then
  down n rows contributes its entry q to entry (p, q).
-/
import Idealize.ShloMosaic.Lib.ValueIdx
import Idealize.ShloMosaic.Lib.Pipeline.Value
import Idealize.ShloMosaic.PureOps.Ideal
import Idealize.ShloMosaic.PureOps.IdealRules

noncomputable section

namespace Cert.Lib

open Idealize.ShloMosaic Idealize.ShloMosaic.ValueIdx

/-- The f32 word of 1.0 denotes the extended real 1. -/
theorem one_f32 : Ideal.ofBits .f32 0x3F800000#32 = 1 := IdealRules.sign_bit.ideal_onePat .f32

/-- The scalar 1.0 broadcast to any shape is 1 at every index. -/
theorem ones_apply {s : Shape} (h0 : (⟨0, ![]⟩ : Shape).BroadcastsInDim s ![]) (i : s.Idx) :
    broadcastInDim s ![] h0 (constant (F := Ideal) ⟨0, ![]⟩ .f32 0x3F800000#32) i = 1 :=
  (broadcastInDim_apply ![] h0 _ i ix0 (fun a => a.elim0)).trans one_f32

/-- 1 / (1 + e^(-z)), spelt in the host's operations, is the logistic function at every index. -/
theorem hostLogistic_apply {s : Shape} (z : FVec Ideal s .f32) (h0 : (⟨0, ![]⟩ : Shape).BroadcastsInDim s ![]) (i : s.Idx) :
    Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z))) i
      = Ideal.logistic (z i) := by
  show Ideal.div (broadcastInDim s ![] h0 (constant (F := Ideal) ⟨0, ![]⟩ .f32 0x3F800000#32) i)
      (broadcastInDim s ![] h0 (constant (F := Ideal) ⟨0, ![]⟩ .f32 0x3F800000#32) i + Ideal.exp (-(z i)))
    = Ideal.div 1 (1 + Ideal.exp (-(z i)))
  rw [ones_apply h0 i]

/-- z · (1 / (1 + e^(-z))), spelt in the host's operations, is z · σ(z) at every index. -/
theorem hostSwish_apply {s : Shape} (z : FVec Ideal s .f32) (h0 : (⟨0, ![]⟩ : Shape).BroadcastsInDim s ![]) (i : s.Idx) :
    mulf z (Host.divf (broadcastInDim s ![] h0 (constant (F := Ideal) ⟨0, ![]⟩ .f32 0x3F800000#32))
      (addf (broadcastInDim s ![] h0 (constant (F := Ideal) ⟨0, ![]⟩ .f32 0x3F800000#32)) (Host.exp (Host.negf z)))) i
      = z i * Ideal.logistic (z i) :=
  congrArg (z i * ·) (hostLogistic_apply z h0 i)

/-- A bias vector [f] broadcast to the row [1, f], then down n rows, and added: entry (p, q) gains the vector's entry q. -/
theorem hostRowBias_apply {n f : Nat} (a : FVec Ideal ⟨2, ![n, f]⟩ .f32) (b : FVec Ideal ⟨1, ![f]⟩ .f32)
    (h1 : (⟨1, ![f]⟩ : Shape).BroadcastsInDim ⟨2, ![1, f]⟩ ![1])
    (h2 : (⟨2, ![1, f]⟩ : Shape).BroadcastsInDim ⟨2, ![n, f]⟩ ![0, 1]) (p : Fin n) (q : Fin f) :
    addf a (broadcastInDim ⟨2, ![n, f]⟩ ![0, 1] h2 (broadcastInDim ⟨2, ![1, f]⟩ ![1] h1 b)) (ix2 p q)
      = a (ix2 p q) + b (ix1 q) := by
  have hq := q.isLt
  have e2 : broadcastInDim ⟨2, ![n, f]⟩ ![0, 1] h2 (broadcastInDim ⟨2, ![1, f]⟩ ![1] h1 b) (ix2 p q)
      = broadcastInDim ⟨2, ![1, f]⟩ ![1] h1 b (ix2 0 q) :=
    broadcastInDim_apply ![0, 1] h2 _ (ix2 p q) (ix2 0 q) (fun d => by
      match d with
      | ⟨0, _⟩ => show (0 : Nat) = if (1 : Nat) = 1 then 0 else p.val; rw [if_pos rfl]
      | ⟨1, _⟩ => show q.val = if f = 1 then 0 else q.val; split <;> omega)
  have e1 : broadcastInDim ⟨2, ![1, f]⟩ ![1] h1 b (ix2 0 q) = b (ix1 q) :=
    broadcastInDim_apply ![1] h1 b (ix2 0 q) (ix1 q) (fun d => by
      match d with
      | ⟨0, _⟩ => show q.val = if f = 1 then 0 else q.val; split <;> omega)
  show a (ix2 p q) + _ = a (ix2 p q) + b (ix1 q)
  rw [e2, e1]

end Cert.Lib

end
-- ==== Proof.LibHostRowMax.lean ====
/-
  The host's maximum of each row of an [a, b] matrix (a one-operand reduce with a maximum body over axis 1), read at a
  row: the fold of max, from the initial value's one element, over k of the matrix at (p, k). Any a, b, any float format.
  It is the same fold a kernel's lane maximum over axis 1 reads as, so the two can be compared term by term.
-/
import Idealize.ShloMosaic.Lib.ValueIdx
import Idealize.ShloMosaic.PureOps.Ideal
import Idealize.ShloMosaic.PureOps.Ideal.Laws
import Idealize.ShloMosaic.PureOps.Reduce

noncomputable section

namespace Cert.Lib

open Idealize.ShloMosaic Idealize.ShloMosaic.ValueIdx

/-- HOST ROW MAXIMA: at row p, the fold of max from the initial value over k of the matrix at (p, k). -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) := by
  refine (Host.reduce_eq_fold_single (FloatOps.maximumf (F := Ideal) (φ := φ)) x init h' h hu (ix1 p)).trans ?_
  refine congrArg ((Finset.univ : Finset (Fin b)).fold max (init (Shape.Idx.first hu))) (funext fun k => congrArg x (funext fun c => Fin.ext ?_))
  match c with
  | ⟨0, _⟩ => rfl
  | ⟨1, _⟩ => rfl

end Cert.Lib

end
-- ==== Proof.RefSide.lean ====
/-
  The reference program's stages read at an index over the extended reals: its features and logits are the bag's, and
  its result for feature e is Σ_n (e^(z n − M) / Σ_n' e^(z n' − M)) · F(n, e), M the largest logit.
-/
import proofs.«161586_j65197603554154_2_alg».proof.Proof.Gen.ReferenceIdeal.Read
import proofs.«161586_j65197603554154_2_alg».proof.Proof.PoolNet
import proofs.«161586_j65197603554154_2_alg».proof.Proof.LibHostLogistic
import proofs.«161586_j65197603554154_2_alg».proof.Proof.LibHostRowMax

noncomputable section

namespace Cert.ReferenceIdeal.RefValue

open Cert.ReferenceIdeal Cert.ReferenceIdeal.Gen Cert.ReferenceIdeal.Read Idealize.ShloMosaic Idealize.ShloMosaic.ValueIdx
open Cert.Pool Cert.Lib

variable (x0 : FVec Ideal S1x50000x768 .f32) (x1 : FVec Ideal S768x768 .f32) (x2 : FVec Ideal S768 .f32)
  (x3 x4 : FVec Ideal S128x768 .f32) (x5 : FVec Ideal S1x128 .f32)

/-- The reference's features are the bag's. -/
theorem ref_feat (n : Fin 50000) (e : Fin 768) : val_main_v5 (F := Ideal) x0 x1 x2 (ix2 n e) = feat x0 x1 x2 n e := by
  rw [val_main_v5_apply, val_main_v4_apply, val_main_v1_apply, val_main_v3_apply, val_main_v2_apply,
    val_main_call0_v0_apply, val_main_call0_cst_apply]
  unfold feat
  show max (_ + _) _ = _
  refine congrArg₂ max (congrArg₂ (· + ·) (Finset.sum_congr rfl fun d _ => congrArg₂ (· * ·) ?_ ?_) ?_) Ideal.ofBits_zero_f32
  · rw [val_main_v0_apply]
    refine congrArg x0 (funext fun a => Fin.ext ?_)
    have hn := n.isLt
    have hd := d.isLt
    match a with
    | ⟨0, _⟩ => rfl
    | ⟨1, _⟩ => show (n.val * 768 + d.val) / 768 % 50000 = n.val; omega
    | ⟨2, _⟩ => show (n.val * 768 + d.val) % 768 = d.val; omega
  · refine congrArg x1 (funext fun a => Fin.ext ?_)
    match a with
    | ⟨0, _⟩ => rfl
    | ⟨1, _⟩ => rfl
  · refine congrArg x2 (funext fun a => Fin.ext ?_)
    match a with
    | ⟨0, _⟩ => rfl

/-- The reference's spelt-out logistic is the logistic function. -/
theorem ref_sigmoid (j : S50000x128.Idx) :
    val_main_v14 (F := Ideal) x0 x1 x2 x4 j = Ideal.logistic (val_main_v8 (F := Ideal) x0 x1 x2 x4 j) :=
  hostLogistic_apply (val_main_v8 (F := Ideal) x0 x1 x2 x4) bcast_S_S50000x128 j

/-- The reference's logits are the bag's. -/
theorem ref_logit (n : Fin 50000) :
    val_main_v16 (F := Ideal) x0 x1 x2 x3 x4 x5 (ix2 (0 : Fin 1) n) = logit x0 x1 x2 x3 x4 x5 n := by
  rw [val_main_v16_apply]
  unfold logit gate
  refine Finset.sum_congr rfl fun k _ => ?_
  rw [mul_comm, val_main_v15_apply, val_main_v7_apply, val_main_v6_apply, val_main_call1_v0_apply, val_main_call1_cst_apply,
    ref_sigmoid, val_main_v8_apply]
  show (max _ _ * _) * _ = _
  refine congrArg₂ (· * ·) (congrArg₂ (· * ·) (congrArg₂ max (Finset.sum_congr rfl fun d _ => congrArg₂ (· * ·) ?_ ?_) Ideal.ofBits_zero_f32)
    (congrArg Ideal.logistic (Finset.sum_congr rfl fun d _ => congrArg₂ (· * ·) ?_ ?_))) ?_
  · refine Eq.trans (congrArg (val_main_v5 (F := Ideal) x0 x1 x2) (funext fun a => Fin.ext ?_)) (ref_feat x0 x1 x2 n d)
    match a with
    | ⟨0, _⟩ => rfl
    | ⟨1, _⟩ => rfl
  · refine congrArg x3 (funext fun a => Fin.ext ?_)
    match a with
    | ⟨0, _⟩ => rfl
    | ⟨1, _⟩ => rfl
  · refine Eq.trans (congrArg (val_main_v5 (F := Ideal) x0 x1 x2) (funext fun a => Fin.ext ?_)) (ref_feat x0 x1 x2 n d)
    match a with
    | ⟨0, _⟩ => rfl
    | ⟨1, _⟩ => rfl
  · refine congrArg x4 (funext fun a => Fin.ext ?_)
    match a with
    | ⟨0, _⟩ => rfl
    | ⟨1, _⟩ => rfl
  · refine congrArg x5 (funext fun a => Fin.ext ?_)
    match a with
    | ⟨0, _⟩ => rfl
    | ⟨1, _⟩ => rfl

/-! ## The softmax over the bag and the pooled result, the arguments being real -/

theorem sum_fin_Ico (f : ℕ → ℝ) (N : ℕ) :
    ∑ n : Fin N, ((f n.val : ℝ) : EReal) = ((∑ n ∈ Finset.Ico 0 N, f n : ℝ) : EReal) := by
  rw [coe_sum, ← Finset.range_eq_Ico, Finset.sum_range]

variable {x0 x1 x2 x3 x4 x5}

/-- The reference's shift — the largest logit — is a real number, the same at every column. -/
theorem ref_shift (hF : Finite x0 x1 x2 x3 x4 x5) :
    ∃ μ : ℝ, ∀ j : S1x50000.Idx, val_main_v21 (F := Ideal) x0 x1 x2 x3 x4 x5 j = (μ : EReal) := by
  obtain ⟨μ, hμ⟩ := exists_real_fold_max (Finset.univ : Finset (Fin 50000)) ⟨0, Finset.mem_univ _⟩
    (fun k => zR x0 x1 x2 x3 x4 x5 k.val)
  have hb : Ideal.ofBits .f32 0xFF800000#32 = (⊥ : EReal) := by simp [Ideal.ofBits, Ideal.ieee]
  have hmax : val_main_v17 (F := Ideal) x0 x1 x2 x3 x4 x5 (ix1 (0 : Fin 1)) = (μ : EReal) := by
    unfold val_main_v17
    refine (hostRowMax_apply (a := 1) (b := 50000) (val_main_v16 (F := Ideal) x0 x1 x2 x3 x4 x5) (val_main_cst_1 (F := Ideal))
      reducesTo_S1x50000_S1_d1 (by decide : S1x50000.Reduces [1] S1) h_S_ (0 : Fin 1)).trans ?_
    refine Eq.trans ?_ hμ
    refine congrArg₂ (fun (b : EReal) (f : Fin 50000 → EReal) => (Finset.univ : Finset (Fin 50000)).fold max b f) hb
      (funext fun k => (ref_logit x0 x1 x2 x3 x4 x5 k).trans (logit_eq hF k))
  refine ⟨μ, fun j => ?_⟩
  rw [val_main_v21_apply, val_main_v20_apply, val_main_v19_apply, val_main_v18_apply, val_main_cst_2_apply]
  refine (congrArg₂ max hb ((congrArg (val_main_v17 (F := Ideal) x0 x1 x2 x3 x4 x5) (funext fun a => Fin.ext ?_)).trans hmax)).trans
    (max_bot_left _)
  match a with
  | ⟨0, _⟩ => rfl

/-- A row's unnormalized weight. -/
theorem ref_exp (hF : Finite x0 x1 x2 x3 x4 x5) (μ : ℝ)
    (hμ : ∀ j : S1x50000.Idx, val_main_v21 (F := Ideal) x0 x1 x2 x3 x4 x5 j = (μ : EReal)) (n : Fin 50000) :
    val_main_v23 (F := Ideal) x0 x1 x2 x3 x4 x5 (ix2 (0 : Fin 1) n)
      = ((Real.exp (zR x0 x1 x2 x3 x4 x5 n.val - μ) : ℝ) : EReal) := by
  rw [val_main_v23_apply, val_main_v22_apply, hμ, ref_logit, logit_eq hF]
  rw [Ideal.hostUnary_exp_def, Ideal.subf_def, ← EReal.coe_sub, Ideal.exp_coe]

/-- The normalizer. -/
theorem ref_den (hF : Finite x0 x1 x2 x3 x4 x5) (μ : ℝ)
    (hμ : ∀ j : S1x50000.Idx, val_main_v21 (F := Ideal) x0 x1 x2 x3 x4 x5 j = (μ : EReal)) (j : S1x50000.Idx) :
    val_main_v26 (F := Ideal) x0 x1 x2 x3 x4 x5 j = ((lsum (zR x0 x1 x2 x3 x4 x5) 0 50000 μ : ℝ) : EReal) := by
  rw [val_main_v26_apply, val_main_v25_apply, val_main_v24_apply]
  rw [show val_main_cst_3 (F := Ideal) (Shape.Idx.first h_S_) = (0 : EReal) from Ideal.ofBits_zero_f32, zero_add]
  unfold lsum
  rw [← sum_fin_Ico]
  refine Finset.sum_congr rfl fun k _ => ?_
  refine Eq.trans (congrArg (val_main_v23 (F := Ideal) x0 x1 x2 x3 x4 x5) (funext fun a => Fin.ext ?_)) (ref_exp hF μ hμ k)
  match a with
  | ⟨0, _⟩ => rfl
  | ⟨1, _⟩ => rfl

/-- THE REFERENCE'S RESULT is the pooled value. -/
theorem ref_result (hF : Finite x0 x1 x2 x3 x4 x5) (e : Fin 768) :
    val_main_v28 (F := Ideal) x0 x1 x2 x3 x4 x5 (ix2 (0 : Fin 1) e) = pooled x0 x1 x2 x3 x4 x5 e := by
  obtain ⟨μ, hμ⟩ := ref_shift hF
  have hpos : lsum (zR x0 x1 x2 x3 x4 x5) 0 50000 μ ≠ 0 := (lsum_pos _ (by norm_num) μ).ne'
  rw [val_main_v28_apply]
  unfold pooled
  rw [pool_shift _ _ 0 50000 0 μ, ← pool_normalized, ← sum_fin_Ico]
  refine Finset.sum_congr rfl fun k _ => ?_
  rw [EReal.coe_mul]
  refine congrArg₂ (· * ·) ?_ ?_
  · rw [val_main_v27_apply]
    show Ideal.div _ _ = _
    rw [ref_den hF μ hμ]
    refine Eq.trans (congrArg (Ideal.div · _) ?_) (div_coe_coe _ hpos)
    refine Eq.trans (congrArg (val_main_v23 (F := Ideal) x0 x1 x2 x3 x4 x5) (funext fun a => Fin.ext ?_)) (ref_exp hF μ hμ k)
    match a with
    | ⟨0, _⟩ => rfl
    | ⟨1, _⟩ => rfl
  · refine Eq.trans (congrArg (val_main_v5 (F := Ideal) x0 x1 x2) (funext fun a => Fin.ext ?_)) ((ref_feat x0 x1 x2 k e).trans (feat_eq hF k e))
    match a with
    | ⟨0, _⟩ => rfl
    | ⟨1, _⟩ => rfl

end Cert.ReferenceIdeal.RefValue

end
-- ==== Proof.LibConcatPair.lean ====
/-
  Two arrays joined along one axis, read at an index.

  A matrix of A columns joined on its right to a matrix of B columns (a concatenation along axis 1 into T columns): at
  column j < A the joined matrix reads the first at column j, and at column A + i it reads the second at column i.  The same
  for two vectors joined end to end (a concatenation along axis 0 of rank-1 arrays).  Any element type.
-/
import Idealize.ShloMosaic.Lib.Pipeline.Value
import Idealize.ShloMosaic.Lib.ValueIdx

namespace Cert.Lib.ConcatPair

open Idealize.ShloMosaic Idealize.ShloMosaic.ValueIdx

variable {α : Type}

/-- Two matrices joined side by side, read in the FIRST one's columns. -/
theorem cols_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin A) (hi : i.val = j.val) :
    concatenate ⟨2, ![R, T]⟩ 1 [⟨⟨2, ![R, A]⟩, x₁⟩, ⟨⟨2, ![R, B]⟩, x₂⟩] h (ix2 r j) = x₁ (ix2 r i) :=
  concatenate_pair_apply_left (1 : Fin 2) x₁ x₂ h (ix2 r j) rfl (ix2 r i) (fun b => match b with
    | ⟨0, _⟩ => rfl
    | ⟨1, _⟩ => hi)

/-- Two matrices joined side by side, read in the SECOND one's columns: column A + i of the join is its column i. -/
theorem cols_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (j : Fin T) (i : Fin B) (hi : i.val + A = j.val) :
    concatenate ⟨2, ![R, T]⟩ 1 [⟨⟨2, ![R, A]⟩, x₁⟩, ⟨⟨2, ![R, B]⟩, x₂⟩] h (ix2 r j) = x₂ (ix2 r i) :=
  concatenate_pair_apply_right (1 : Fin 2) x₁ x₂ h (ix2 r j) rfl rfl (ix2 r i) (fun b => match b with
    | ⟨0, _⟩ => fun _ => rfl
    | ⟨1, _⟩ => fun hb => absurd rfl hb) hi

/-- Two vectors joined end to end, read in the FIRST one's stretch. -/
theorem vec_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin A) (hi : i.val = j.val) :
    concatenate ⟨1, ![T]⟩ 0 [⟨⟨1, ![A]⟩, x₁⟩, ⟨⟨1, ![B]⟩, x₂⟩] h (ix1 j) = x₁ (ix1 i) :=
  concatenate_pair_apply_left (0 : Fin 1) x₁ x₂ h (ix1 j) rfl (ix1 i) (fun b => match b with
    | ⟨0, _⟩ => hi)

/-- Two vectors joined end to end, read in the SECOND one's stretch: position A + i of the join is its position i. -/
theorem vec_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (j : Fin T) (i : Fin B) (hi : i.val + A = j.val) :
    concatenate ⟨1, ![T]⟩ 0 [⟨⟨1, ![A]⟩, x₁⟩, ⟨⟨1, ![B]⟩, x₂⟩] h (ix1 j) = x₂ (ix1 i) :=
  concatenate_pair_apply_right (0 : Fin 1) x₁ x₂ h (ix1 j) rfl rfl (ix1 i) (fun b => match b with
    | ⟨0, _⟩ => fun hb => absurd rfl hb) hi

end Cert.Lib.ConcatPair
-- ==== Proof.KernelBlocks.lean ====
/-
  What each window's block holds at a grid point, in terms of the six argument arrays: block t of the bag is its rows
  1000·t … 1000·t + 999; the four weight windows hold, whole, the transposed (and, for the two attention branches,
  joined) weights the host prepared before the call.
-/
import proofs.«161586_j65197603554154_2_alg».proof.Proof.Gen.KernelIdeal.Frame
import proofs.«161586_j65197603554154_2_alg».proof.Proof.LibConcatPair
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-! ## Where each window's block sits in its array -/

theorem index0 : ∀ t : Fin cfg0.N, win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)

/-- Block t of the bag: its rows 1000·t + r. -/
theorem x_block (c : Dev nD) (t : Fin cfg0.N) (r : Fin 1000) (d : Fin 768) (n : Fin 50000) (hn : n.val = 1000 * t.val + r.val) :
    (iblk m c 0 t : Vec Ideal S1x1000x768 .f32) (ix3 (0 : Fin 1) r d)
      = m ((c : Thread nD τ).loc main_arg0) (ix3 (0 : Fin 1) n d) := by
  have hi := index0 t
  unfold iblk
  rw [View.read_apply]
  show V m c main_arg0 _ = _
  rw [V_main_arg0]
  congr 1
  funext a
  apply Fin.ext
  match a with
  | ⟨0, _⟩ => show win0_0.index t 0 * 1 + 1 * 0 = 0; rw [hi.1]
  | ⟨1, _⟩ => show win0_0.index t 1 * 1000 + 1 * r.val = n.val; rw [hi.2.1, hn]; omega
  | ⟨2, _⟩ => show win0_0.index t 2 * 768 + 1 * d.val = d.val; rw [hi.2.2]; omega

/-! ## The arrays the host prepared before the call -/

theorem V_v1 (c : Dev nD) : @Eq (S768x768.Idx → EReal) (V m c main_v1)
    (truncf (F := Ideal) .bf16 (transpose S768x768 [1, 0] (m ((c : Thread nD τ).loc main_arg1)) transposes_S768x768_S768x768_1_0) bitsLt_bf16_f32) := by
  show StableHlo.after hostOps0 (fun b => m (c, b)) (Proc.devRef .tc main_v1) = _
  after_results
  try rfl

theorem V_v8 (c : Dev nD) : @Eq (S1x768.Idx → EReal) (V m c main_v8)
    (shapeCast S1x768 (m ((c : Thread nD τ).loc main_arg2)) shapeCasts_S768_S1x768) := by
  show StableHlo.after hostOps0 (fun b => m (c, b)) (Proc.devRef .tc main_v8) = _
  after_results
  try rfl

/-- The two attention branches' weights, each transposed, joined side by side. -/
abbrev joined (c : Dev nD) : S768x256.Idx → EReal :=
  concatenate S768x256 1
    [⟨S768x128, transpose S768x128 [1, 0] (m ((c : Thread nD τ).loc main_arg3)) transposes_S128x768_S768x128_1_0⟩,
     ⟨S768x128, transpose S768x128 [1, 0] (m ((c : Thread nD τ).loc main_arg4)) transposes_S128x768_S768x128_1_0⟩]
    concatenates_S768x128_S768x128_S768x256_d1

theorem V_v5 (c : Dev nD) : @Eq (S768x256.Idx → EReal) (V m c main_v5)
    (truncf (F := Ideal) .bf16 (joined m c) bitsLt_bf16_f32) := by
  show StableHlo.after hostOps0 (fun b => m (c, b)) (Proc.devRef .tc main_v5) = _
  after_results
  try rfl

theorem V_v7 (c : Dev nD) : @Eq (S128x1.Idx → EReal) (V m c main_v7)
    (truncf (F := Ideal) .bf16 (transpose S128x1 [1, 0] (m ((c : Thread nD τ).loc main_arg5)) transposes_S1x128_S128x1_1_0) bitsLt_bf16_f32) := by
  show StableHlo.after hostOps0 (fun b => m (c, b)) (Proc.devRef .tc main_v7) = _
  after_results
  try rfl

/-! ## The weight windows' blocks, entry by entry -/

/-- The feature weights, transposed: entry (d, e) of the window is W(e, d). -/
theorem w_block (c : Dev nD) (t : Fin cfg0.N) (d e : Fin 768) :
    (iblk m c 1 t : Vec Ideal S768x768 .bf16) (ix2 d e) = m ((c : Thread nD τ).loc main_arg1) (ix2 e d) := by
  have hi := index1 t
  unfold iblk
  rw [View.read_apply]
  show V m c main_v1 _ = _
  rw [V_v1]
  refine Eq.trans ?_ (transpose_ix2_apply (m ((c : Thread nD τ).loc main_arg1)) transposes_S768x768_S768x768_1_0 d e)
  show transpose S768x768 [1, 0] (m ((c : Thread nD τ).loc main_arg1)) transposes_S768x768_S768x768_1_0 _ = _
  congr 1
  funext a
  apply Fin.ext
  match a with
  | ⟨0, _⟩ => show win0_1.index t 0 * 768 + 1 * d.val = d.val; rw [hi.1]; omega
  | ⟨1, _⟩ => show win0_1.index t 1 * 768 + 1 * e.val = e.val; rw [hi.2]; omega

/-- The bias as a row: entry (0, e) of the window is b(e). -/
theorem b_block (c : Dev nD) (t : Fin cfg0.N) (e : Fin 768) :
    (iblk m c 2 t : Vec Ideal S1x768 .f32) (ix2 (0 : Fin 1) e) = m ((c : Thread nD τ).loc main_arg2) (ix1 e) := by
  have hi := index2 t
  unfold iblk
  rw [View.read_apply]
  show V m c main_v8 _ = _
  rw [V_v8]
  refine Eq.trans ?_ (shapeCast_a_1a_apply (m ((c : Thread nD τ).loc main_arg2)) shapeCasts_S768_S1x768 (0 : Fin 1) e)
  show shapeCast S1x768 (m ((c : Thread nD τ).loc main_arg2)) shapeCasts_S768_S1x768 _ = _
  congr 1
  funext a
  apply Fin.ext
  match a with
  | ⟨0, _⟩ => show win0_2.index t 0 * 1 + 1 * 0 = 0; rw [hi.1]
  | ⟨1, _⟩ => show win0_2.index t 1 * 768 + 1 * e.val = e.val; rw [hi.2]; omega

/-- The two attention branches' weights, transposed and joined: column j < 128 of the window is branch A's row j, -/
theorem ab_block_left (c : Dev nD) (t : Fin cfg0.N) (d : Fin 768) (k : Fin 128) (j : Fin 256) (hj : j.val = k.val) :
    (iblk m c 3 t : Vec Ideal S768x256 .bf16) (ix2 d j) = m ((c : Thread nD τ).loc main_arg3) (ix2 k d) := by
  have hi := index3 t
  unfold iblk
  rw [View.read_apply]
  show V m c main_v5 _ = _
  rw [V_v5]
  refine Eq.trans ?_ (transpose_ix2_apply (m ((c : Thread nD τ).loc main_arg3)) transposes_S128x768_S768x128_1_0 d k)
  refine Eq.trans ?_ (Cert.Lib.ConcatPair.cols_left
    (transpose S768x128 [1, 0] (m ((c : Thread nD τ).loc main_arg3)) transposes_S128x768_S768x128_1_0)
    (transpose S768x128 [1, 0] (m ((c : Thread nD τ).loc main_arg4)) transposes_S128x768_S768x128_1_0)
    concatenates_S768x128_S768x128_S768x256_d1 d j k hj.symm)
  show joined m c _ = joined m c _
  congr 1
  funext a
  apply Fin.ext
  match a with
  | ⟨0, _⟩ => show win0_3.index t 0 * 768 + 1 * d.val = d.val; rw [hi.1]; omega
  | ⟨1, _⟩ => show win0_3.index t 1 * 256 + 1 * j.val = j.val; rw [hi.2]; omega

/-- and column 128 + k is branch B's row k. -/
theorem ab_block_right (c : Dev nD) (t : Fin cfg0.N) (d : Fin 768) (k : Fin 128) (j : Fin 256) (hj : j.val = 128 + k.val) :
    (iblk m c 3 t : Vec Ideal S768x256 .bf16) (ix2 d j) = m ((c : Thread nD τ).loc main_arg4) (ix2 k d) := by
  have hi := index3 t
  unfold iblk
  rw [View.read_apply]
  show V m c main_v5 _ = _
  rw [V_v5]
  refine Eq.trans ?_ (transpose_ix2_apply (m ((c : Thread nD τ).loc main_arg4)) transposes_S128x768_S768x128_1_0 d k)
  refine Eq.trans ?_ (Cert.Lib.ConcatPair.cols_right
    (transpose S768x128 [1, 0] (m ((c : Thread nD τ).loc main_arg3)) transposes_S128x768_S768x128_1_0)
    (transpose S768x128 [1, 0] (m ((c : Thread nD τ).loc main_arg4)) transposes_S128x768_S768x128_1_0)
    concatenates_S768x128_S768x128_S768x256_d1 d j k (by omega))
  show joined m c _ = joined m c _
  congr 1
  funext a
  apply Fin.ext
  match a with
  | ⟨0, _⟩ => show win0_3.index t 0 * 768 + 1 * d.val = d.val; rw [hi.1]; omega
  | ⟨1, _⟩ => show win0_3.index t 1 * 256 + 1 * j.val = j.val; rw [hi.2]; omega

/-- The logit weights as a column: entry (k, 0) of the window is c(0, k). -/
theorem c_block (c : Dev nD) (t : Fin cfg0.N) (k : Fin 128) :
    (iblk m c 4 t : Vec Ideal S128x1 .bf16) (ix2 k (0 : Fin 1)) = m ((c : Thread nD τ).loc main_arg5) (ix2 (0 : Fin 1) k) := by
  have hi := index4 t
  unfold iblk
  rw [View.read_apply]
  show V m c main_v7 _ = _
  rw [V_v7]
  refine Eq.trans ?_ (transpose_ix2_apply (m ((c : Thread nD τ).loc main_arg5)) transposes_S1x128_S128x1_1_0 k (0 : Fin 1))
  show transpose S128x1 [1, 0] (m ((c : Thread nD τ).loc main_arg5)) transposes_S1x128_S128x1_1_0 _ = _
  congr 1
  funext a
  apply Fin.ext
  match a with
  | ⟨0, _⟩ => show win0_4.index t 0 * 128 + 1 * k.val = k.val; rw [hi.1]; omega
  | ⟨1, _⟩ => show win0_4.index t 1 * 1 + 1 * 0 = 0; rw [hi.2]

end Cert.KernelIdeal.Blocks
end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibAxisSums.lean ====
/-
  The sum of a matrix along one of its two axes, read at an index. Independent of any program.

  A float add-reduction of an [a, b] matrix over its second axis leaves an [a] vector whose entry p is the sum over
  k : Fin b of the matrix at (p, k) — a row sum; over its first axis it leaves a [b] vector whose entry q is the sum
  over k : Fin a of the matrix at (k, q) — a column sum. Over the extended reals the reduction's neutral start value
  contributes nothing, so each is the plain finite sum.
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- ROW SUMS: an add-reduction of an [a, b] matrix over axis 1, at row p, is the sum over k of the matrix at (p, k). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun c => Fin.ext ?_)
  match c with
  | ⟨0, _⟩ => rfl
  | ⟨1, _⟩ => rfl

/-- COLUMN SUMS: an add-reduction of an [a, b] matrix over axis 0, at column q, is the sum over k of the matrix at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  match c with
  | ⟨0, _⟩ => rfl
  | ⟨1, _⟩ => rfl

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KernelTile.lean ====
/-
  One block of 1000 rows through the kernel body, read entry by entry over the extended reals: the block's features,
  its logits, and the three updated running values.
-/
import proofs.«161586_j65197603554154_2_alg».proof.Proof.Gen.KernelIdeal.Skeleton
import proofs.«161586_j65197603554154_2_alg».proof.Proof.LibPlainDot
import proofs.«161586_j65197603554154_2_alg».proof.Proof.LibAxisSums
import proofs.«161586_j65197603554154_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Lib

/-- FEATURES OF THE BLOCK: row r, feature e is max(Σ_d x(r,d)·w(d,e) + b(e), 0). -/
theorem feat_apply (x0 : Vec Ideal S1x1000x768 .f32) (x1 : Vec Ideal S768x768 .bf16) (x2 : Vec Ideal S1x768 .f32)
    (r : Fin 1000) (e : Fin 768) :
    k0_pay11 (F := Ideal) x0 x1 x2 (ix2 r e)
      = max (∑ d : Fin 768, x0 (ix3 (0 : Fin 1) r d) * x1 (ix2 d e) + x2 (ix2 (0 : Fin 1) e)) 0 := by
  unfold k0_pay11
  refine (maximumf_apply _ _ (ix2 r e)).trans ?_
  refine congrArg₂ max ((addf_apply _ _ (ix2 r e)).trans (congrArg₂ (· + ·) ?_ ?_)) Ideal.ofBits_zero_f32
  · refine (matmul_zero_apply dot_S1000x768_S768x768_S1000x768_1_0_0_1_n_n_wf none _ _ r e).trans ?_
    refine Finset.sum_congr rfl fun d _ => congrArg₂ (· * ·) ?_ ?_
    · exact shapeCast_1ab_ab_apply x0 shapeCasts_S1x1000x768_S1000x768 r d
    · exact congrFun (shapeCast_self x1 shapeCasts_S768x768_S768x768) (ix2 d e)
  · refine (broadcastTo_1b_ab_apply _ broadcasts_S1x768_S1000x768 r e).trans ?_
    exact congrFun (shapeCast_self x2 shapeCasts_S1x768_S1x768) (ix2 (0 : Fin 1) e)

/-- LOGITS OF THE BLOCK: row r's logit is Σ_k max(Σ_d F(r,d)·w(d,k), 0) · σ(Σ_d F(r,d)·w(d,128+k)) · c(k), F the block's
    features: the two branches are the left and right halves of one product's 256 columns. -/
theorem logit_apply (x0 : Vec Ideal S1x1000x768 .f32) (x1 : Vec Ideal S768x768 .bf16) (x2 : Vec Ideal S1x768 .f32)
    (x3 : Vec Ideal S768x256 .bf16) (x4 : Vec Ideal S128x1 .bf16) (r : Fin 1000) :
    k0_pay12 (F := Ideal) x0 x1 x2 x3 x4 (ix2 r (0 : Fin 1))
      = ∑ k : Fin 128,
          (max (∑ d : Fin 768, k0_pay11 (F := Ideal) x0 x1 x2 (ix2 r d) * x3 (ix2 d (⟨k.val, by omega⟩ : Fin 256))) 0
            * Ideal.logistic (∑ d : Fin 768, k0_pay11 (F := Ideal) x0 x1 x2 (ix2 r d) * x3 (ix2 d (⟨128 + k.val, by omega⟩ : Fin 256))))
          * x4 (ix2 k (0 : Fin 1)) := by
  unfold k0_pay12
  refine (matmul_zero_apply dot_S1000x128_S128x1_S1000x1_1_0_0_1_n_n_wf none _ _ r (0 : Fin 1)).trans ?_
  refine Finset.sum_congr rfl fun k _ => congrArg₂ (· * ·) ?_ ?_
  · refine (mulf_apply _ _ (ix2 r k)).trans (congrArg₂ (· * ·) ?_ ?_)
    · refine (maximumf_apply _ _ (ix2 r k)).trans (congrArg₂ max ?_ Ideal.ofBits_zero_f32)
      refine (slice2_axis1_apply 0 _ slices_S1000x256_o0_0_S1000x128 r k (⟨k.val, by omega⟩ : Fin 256) (by simp)).trans ?_
      refine (matmul_zero_apply dot_S1000x768_S768x256_S1000x256_1_0_0_1_n_n_wf none _ _ r _).trans ?_
      refine Finset.sum_congr rfl fun d _ => congrArg₂ (· * ·) rfl ?_
      exact congrFun (shapeCast_self x3 shapeCasts_S768x256_S768x256) _
    · show Ideal.logistic _ = Ideal.logistic _
      refine congrArg Ideal.logistic ?_
      refine (slice2_axis1_apply 128 _ slices_S1000x256_o0_128_S1000x128 r k (⟨128 + k.val, by omega⟩ : Fin 256) rfl).trans ?_
      refine (matmul_zero_apply dot_S1000x768_S768x256_S1000x256_1_0_0_1_n_n_wf none _ _ r _).trans ?_
      refine Finset.sum_congr rfl fun d _ => congrArg₂ (· * ·) rfl ?_
      exact congrFun (shapeCast_self x3 shapeCasts_S768x256_S768x256) _
  · exact congrFun (shapeCast_self x4 shapeCasts_S128x1_S128x1) (ix2 k (0 : Fin 1))

/-! ## The three running values after the block -/

/-- The one index of a [1, 1] array. -/
abbrev o2 : S1x1.Idx := ix2 (0 : Fin 1) (0 : Fin 1)

theorem idx11 (i : S1x1.Idx) : i = o2 := by
  funext a
  apply Fin.ext
  match a with
  | ⟨0, _⟩ => have h : (i 0).val < 1 := (i 0).isLt; show (i 0).val = 0; omega
  | ⟨1, _⟩ => have h : (i 1).val < 1 := (i 1).isLt; show (i 1).val = 0; omega

/-- The −∞ word. -/
theorem ninf_f32 : Ideal.ofBits .f32 0xFF800000#32 = ⊥ := by simp [Ideal.ofBits, Ideal.ieee]

/-- THE NEW SHIFT: the old shift joined with the largest logit of the block (a running maximum started from −∞). -/
theorem shift_apply (x0 : Vec Ideal S1x1000x768 .f32) (x1 : Vec Ideal S768x768 .bf16) (x2 : Vec Ideal S1x768 .f32)
    (x3 : Vec Ideal S768x256 .bf16) (x4 : Vec Ideal S128x1 .bf16) (v29 : Vec Ideal S1x1 .f32) :
    k0_pay13 (F := Ideal) x0 x1 x2 x3 x4 v29 o2
      = max (v29 o2) ((Finset.univ : Finset (Fin 1000)).fold max ⊥ (fun r => k0_pay12 (F := Ideal) x0 x1 x2 x3 x4 (ix2 r (0 : Fin 1)))) := by
  unfold k0_pay13
  refine (maximumf_apply _ _ o2).trans (congrArg₂ max rfl ?_)
  refine (shapeCast_a_1a_apply _ shapeCasts_S1_S1x1 (0 : Fin 1) (0 : Fin 1)).trans ?_
  refine (Ideal.multiReduction_maximumf_single _ _ reduces_S1000x1_S1 (.inl rfl) rfl (ix1 (0 : Fin 1))).trans ?_
  refine congrArg₂ (fun (b : EReal) (f : Fin 1000 → EReal) => (Finset.univ : Finset (Fin 1000)).fold max b f)
    (show _ = (⊥ : EReal) from ninf_f32) (funext fun r => ?_)
  refine congrArg (k0_pay12 (F := Ideal) x0 x1 x2 x3 x4) (funext fun a => Fin.ext ?_)
  match a with
  | ⟨0, _⟩ => rfl
  | ⟨1, _⟩ => rfl

/-- The rescaling factor of the old sums: e^(old shift − new shift). -/
theorem scale_apply (x0 : Vec Ideal S1x1000x768 .f32) (x1 : Vec Ideal S768x768 .bf16) (x2 : Vec Ideal S1x768 .f32)
    (x3 : Vec Ideal S768x256 .bf16) (x4 : Vec Ideal S128x1 .bf16) (v29 : Vec Ideal S1x1 .f32) :
    k0_pay14 (F := Ideal) x0 x1 x2 x3 x4 v29 o2 = Ideal.exp (v29 o2 - k0_pay13 (F := Ideal) x0 x1 x2 x3 x4 v29 o2) := rfl

/-- The new shift spread down the block's rows. -/
theorem spread_apply (x0 : Vec Ideal S1x1000x768 .f32) (x1 : Vec Ideal S768x768 .bf16) (x2 : Vec Ideal S1x768 .f32)
    (x3 : Vec Ideal S768x256 .bf16) (x4 : Vec Ideal S128x1 .bf16) (v29 : Vec Ideal S1x1 .f32) (r : Fin 1000) :
    k0_pay15 (F := Ideal) x0 x1 x2 x3 x4 v29 (ix2 r (0 : Fin 1)) = k0_pay13 (F := Ideal) x0 x1 x2 x3 x4 v29 o2 := by
  unfold k0_pay15
  exact broadcastTo_1b_ab_apply _ broadcasts_S1x1_S1000x1 r (0 : Fin 1)

/-- A row's weight: e^(logit − new shift). -/
theorem weight_apply (v28 v35 : FVec Ideal S1000x1 .f32) (r : Fin 1000) :
    k0_pay1 (F := Ideal) v28 v35 (ix2 r (0 : Fin 1)) = Ideal.exp (v28 (ix2 r (0 : Fin 1)) - v35 (ix2 r (0 : Fin 1))) := rfl

/-- THE NEW WEIGHT SUM: the old one times the rescaling factor, plus the block's weights. -/
theorem lsum_apply (v28 : FVec Ideal S1000x1 .f32) (v34 : FVec Ideal S1x1 .f32) (v35 : FVec Ideal S1000x1 .f32) (v38 : Vec Ideal S1x1 .f32) :
    k0_pay2 (F := Ideal) v28 v34 v35 v38 o2
      = v34 o2 * v38 o2 + ∑ r : Fin 1000, k0_pay1 (F := Ideal) v28 v35 (ix2 r (0 : Fin 1)) := by
  unfold k0_pay2
  refine (congrFun (shapeCast_self _ shapeCasts_S1x1_S1x1) o2).trans ?_
  refine (addf_apply _ _ o2).trans (congrArg₂ (· + ·) rfl ?_)
  refine (shapeCast_a_1a_apply _ shapeCasts_S1_S1x1 (0 : Fin 1) (0 : Fin 1)).trans ?_
  exact colSum_apply _ _ reduces_S1000x1_S1 (.inl rfl) rfl (0 : Fin 1)

/-- THE NEW WEIGHTED FEATURE SUM, feature e: the old one times the rescaling factor, plus Σ_r weight(r)·F(r, e). -/
theorem wsum_apply (v14 : FVec Ideal S1000x768 .f32) (v28 : FVec Ideal S1000x1 .f32) (v34 : FVec Ideal S1x1 .f32)
    (v35 : FVec Ideal S1000x1 .f32) (v46 : Vec Ideal S1x768 .f32) (e : Fin 768) :
    k0_pay3 (F := Ideal) v14 v28 v34 v35 v46 (ix2 (0 : Fin 1) e)
      = v34 o2 * v46 (ix2 (0 : Fin 1) e) + ∑ r : Fin 1000, k0_pay1 (F := Ideal) v28 v35 (ix2 r (0 : Fin 1)) * v14 (ix2 r e) := by
  unfold k0_pay3
  refine (congrFun (shapeCast_self _ shapeCasts_S1x768_S1x768) (ix2 (0 : Fin 1) e)).trans ?_
  refine (addf_apply _ _ (ix2 (0 : Fin 1) e)).trans (congrArg₂ (· + ·) ?_ ?_)
  · refine (mulf_apply _ _ (ix2 (0 : Fin 1) e)).trans (congrArg₂ (· * ·) ?_ rfl)
    exact broadcastTo_a1_ab_apply v34 broadcasts_S1x1_S1x768 (0 : Fin 1) e
  · refine (shapeCast_a_1a_apply _ shapeCasts_S768_S1x768 (0 : Fin 1) e).trans ?_
    refine (colSum_apply _ _ reduces_S1000x768_S768 (.inl rfl) rfl e).trans ?_
    refine Finset.sum_congr rfl fun r _ => ?_
    refine (mulf_apply _ _ (ix2 r e)).trans (congrArg₂ (· * ·) ?_ rfl)
    exact broadcastTo_a1_ab_apply _ broadcasts_S1000x1_S1000x768 r e

theorem keep_apply (v32 : FVec Ideal S1x1 .f32) : k0_pay4 (F := Ideal) v32 = v32 := by
  unfold k0_pay4
  exact shapeCast_self _ shapeCasts_S1x1_S1x1

/-! ## The values written out after a core's last block, and the values the first block starts from -/

theorem emit1_apply (v : Vec Ideal S1x1 .f32) (u a b : Fin 1) : k0_pay5 (F := Ideal) v (ix3 u a b) = v o2 := by
  unfold k0_pay5
  refine (shapeCast_ab_1ab_apply v shapeCasts_S1x1_S1x1x1 u a b).trans (congrArg v ?_)
  exact (idx11 _)

theorem emit2_apply (v : Vec Ideal S1x1 .f32) (u a b : Fin 1) : k0_pay6 (F := Ideal) v (ix3 u a b) = v o2 := by
  unfold k0_pay6
  refine (shapeCast_ab_1ab_apply v shapeCasts_S1x1_S1x1x1 u a b).trans (congrArg v ?_)
  exact (idx11 _)

theorem emit3_apply (v : Vec Ideal S1x768 .f32) (u a : Fin 1) (e : Fin 768) :
    k0_pay7 (F := Ideal) v (ix3 u a e) = v (ix2 (0 : Fin 1) e) := by
  unfold k0_pay7
  refine (shapeCast_ab_1ab_apply v shapeCasts_S1x768_S1x1x768 u a e).trans (congrArg v ?_)
  rw [Subsingleton.elim a 0]

theorem init_shift (i : S1x1.Idx) : k0_pay8 (F := Ideal) i = ⊥ := by
  unfold k0_pay8
  exact (congrFun (shapeCast_self _ shapeCasts_S1x1_S1x1) i).trans ninf_f32

theorem init_lsum (i : S1x1.Idx) : k0_pay9 (F := Ideal) i = 0 := by
  unfold k0_pay9
  exact (congrFun (shapeCast_self _ shapeCasts_S1x1_S1x1) i).trans Ideal.ofBits_zero_f32

theorem init_wsum (i : S1x768.Idx) : k0_pay10 (F := Ideal) i = 0 := by
  unfold k0_pay10
  exact (congrFun (shapeCast_self _ shapeCasts_S1x768_S1x768) i).trans Ideal.ofBits_zero_f32

end Cert.KernelIdeal.Tile
end
-- ==== Proof.KernelPieces.lean ====
import proofs.«161586_j65197603554154_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The running state of the one-pass pooling — shift, weight sum, weighted feature sum — after a block of rows, as the
    body's three stored values: functions of the block, the weights and the state before. -/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new shift: the old one joined with the block's largest logit. -/
def stepM (x0 : Vec F S1x1000x768 .f32) (x1 : Vec F S768x768 .bf16) (x2 : Vec F S1x768 .f32) (x3 : Vec F S768x256 .bf16) (x4 : Vec F S128x1 .bf16) (xs0 : Vec F S1x1 .f32) : Vec F S1x1 .f32 := k0_pay4 (k0_pay13 x0 x1 x2 x3 x4 xs0)
/-- The new weight sum: the old one rescaled, plus the block's weights. -/
def stepL (x0 : Vec F S1x1000x768 .f32) (x1 : Vec F S768x768 .bf16) (x2 : Vec F S1x768 .f32) (x3 : Vec F S768x256 .bf16) (x4 : Vec F S128x1 .bf16) (xs0 xs1 : Vec F S1x1 .f32) : Vec F S1x1 .f32 :=
  k0_pay2 (k0_pay12 x0 x1 x2 x3 x4) (k0_pay14 x0 x1 x2 x3 x4 xs0) (k0_pay15 x0 x1 x2 x3 x4 xs0) xs1
/-- The new weighted feature sum: the old one rescaled, plus the block's weighted features. -/
def stepW (x0 : Vec F S1x1000x768 .f32) (x1 : Vec F S768x768 .bf16) (x2 : Vec F S1x768 .f32) (x3 : Vec F S768x256 .bf16) (x4 : Vec F S128x1 .bf16) (xs0 : Vec F S1x1 .f32) (xs2 : Vec F S1x768 .f32) : Vec F S1x768 .f32 :=
  k0_pay3 (k0_pay11 x0 x1 x2) (k0_pay12 x0 x1 x2 x3 x4) (k0_pay14 x0 x1 x2 x3 x4 xs0) (k0_pay15 x0 x1 x2 x3 x4 xs0) xs2

theorem sout_B_0 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : ¬cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepM x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_B_1 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : ¬cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepL x0 x1 x2 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_B_2 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : ¬cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepW x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_C_0 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepM x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_C_1 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepL x0 x1 x2 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_C_2 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = stepW x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem out_C_5 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    out0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay5 (stepM x0 x1 x2 x3 x4 xs0) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem out_C_6 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    out0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay6 (stepL x0 x1 x2 x3 x4 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem out_C_7 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : ¬cond0_0 i) (hc1 : cond0_1 i) (x0 : Vec F S1x1000x768 .f32) (x1 : Vec F S768x768 .bf16) (x2 : Vec F S1x768 .f32) (x3 : Vec F S768x256 .bf16) (x4 : Vec F S128x1 .bf16) (xs0 : Vec F S1x1 .f32) (xs1 : Vec F S1x1 .f32) (xs2 : Vec F S1x768 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k0_pay7 (stepW x0 x1 x2 x3 x4 xs0 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_A_0 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : cond0_0 i) (hc1 : ¬cond0_1 i) (x0 : Vec F S1x1000x768 .f32) (x1 : Vec F S768x768 .bf16) (x2 : Vec F S1x768 .f32) (x3 : Vec F S768x256 .bf16) (x4 : Vec F S128x1 .bf16)  :
    sout0_A_0 c i arg2 harg2 arg3 harg3 arg4 harg4 arg5 harg5 arg6 harg6 arg7 harg7 arg8 harg8 arg9 harg9 arg10 harg10 arg11 harg11 arg12 harg12 hc0 hc1 x0 x1 x2 x3 x4  = stepM x0 x1 x2 x3 x4 k0_pay8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_A_1 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : cond0_0 i) (hc1 : ¬cond0_1 i) (x0 : Vec F S1x1000x768 .f32) (x1 : Vec F S768x768 .bf16) (x2 : Vec F S1x768 .f32) (x3 : Vec F S768x256 .bf16) (x4 : Vec F S128x1 .bf16)  :
    sout0_A_1 c i arg2 harg2 arg3 harg3 arg4 harg4 arg5 harg5 arg6 harg6 arg7 harg7 arg8 harg8 arg9 harg9 arg10 harg10 arg11 harg11 arg12 harg12 hc0 hc1 x0 x1 x2 x3 x4  = stepL x0 x1 x2 x3 x4 k0_pay8 k0_pay9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

theorem sout_A_2 (c : Dev nD) (i : grid0.Coords) (arg2 : Memref sig .tc .vmem S1x1000x768 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x256 .bf16) (harg5 : arg5.IsWhole) (arg6 : Memref sig .tc .vmem S128x1 .bf16) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x768 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x768 .f32) (harg12 : arg12.IsWhole) (hc0 : cond0_0 i) (hc1 : ¬cond0_1 i) (x0 : Vec F S1x1000x768 .f32) (x1 : Vec F S768x768 .bf16) (x2 : Vec F S1x768 .f32) (x3 : Vec F S768x256 .bf16) (x4 : Vec F S128x1 .bf16)  :
    sout0_A_2 c i arg2 harg2 arg3 harg3 arg4 harg4 arg5 harg5 arg6 harg6 arg7 harg7 arg8 harg8 arg9 harg9 arg10 harg10 arg11 harg11 arg12 harg12 hc0 hc1 x0 x1 x2 x3 x4  = stepW x0 x1 x2 x3 x4 k0_pay8 k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  rw [View.canon_cons_unit_zero (S := S1x768) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1) hz2, View.ld_unit_zero (S := S1x768) hz2, View.ld_unit_zero (S := S768x768) hz2, View.ld_unit_zero (S := S768x256) hz2, View.ld_unit_zero (S := S128x1) hz2, View.ld_unit_zero (S := S1x1000x768) hz3, View.ld_unit_zero (S := S1x1x1) hz3, View.ld_unit_zero (S := S1x1x768) hz3, View.readCov_unit_zero (S := S1x1) _ hz2, View.readCov_unit_zero (S := S1x768) _ hz2]
  rfl

end Cert.KernelIdeal.Pieces
end
-- ==== Proof.KernelStep.lean ====
/-
  One step of the one-pass pooling, over the extended reals: when the block's logits and features are real numbers and
  the state before the block is that of the rows before it (or the block is a core's first), the three values the body
  stores are the state of the rows up to and including the block, at a real shift.
-/
import proofs.«161586_j65197603554154_2_alg».proof.Proof.KernelTile
import proofs.«161586_j65197603554154_2_alg».proof.Proof.KernelPieces
import proofs.«161586_j65197603554154_2_alg».proof.Proof.LibOnlineSoftmax

noncomputable section

namespace Cert.KernelIdeal.Step

open Cert.KernelIdeal Cert.KernelIdeal.Gen Idealize.ShloMosaic Idealize.ShloMosaic.ValueIdx
open Cert.KernelIdeal.Tile Cert.KernelIdeal.Pieces Cert.Pool

/-- THE STATE of rows a ≤ n < b: a real shift μ, Σ e^(z n − μ), and for each feature e the sum Σ e^(z n − μ)·h e n. -/
def Holds (z : ℕ → ℝ) (h : Fin 768 → ℕ → ℝ) (a b : ℕ) (s0 s1 : Vec Ideal S1x1 .f32) (s2 : Vec Ideal S1x768 .f32) : Prop :=
  ∃ μ : ℝ, s0 o2 = (μ : EReal) ∧ s1 o2 = ((lsum z a b μ : ℝ) : EReal)
    ∧ ∀ e : Fin 768, s2 (ix2 (0 : Fin 1) e) = ((wsum z (h e) a b μ : ℝ) : EReal)

section
variable (x0 : Vec Ideal S1x1000x768 .f32) (x1 : Vec Ideal S768x768 .bf16) (x2 : Vec Ideal S1x768 .f32)
  (x3 : Vec Ideal S768x256 .bf16) (x4 : Vec Ideal S128x1 .bf16)
  (z : ℕ → ℝ) (h : Fin 768 → ℕ → ℝ) (b : ℕ)
  (hz : ∀ r : Fin 1000, k0_pay12 (F := Ideal) x0 x1 x2 x3 x4 (ix2 r (0 : Fin 1)) = ((z (b + r.val) : ℝ) : EReal))
  (hh : ∀ (r : Fin 1000) (e : Fin 768), k0_pay11 (F := Ideal) x0 x1 x2 (ix2 r e) = ((h e (b + r.val) : ℝ) : EReal))

include hz in
/-- The block's largest logit is a real number. -/
theorem block_max : ∃ μc : ℝ, (Finset.univ : Finset (Fin 1000)).fold max (⊥ : EReal)
    (fun r => k0_pay12 (F := Ideal) x0 x1 x2 x3 x4 (ix2 r (0 : Fin 1))) = (μc : EReal) := by
  obtain ⟨μc, hμc⟩ := exists_real_fold_max (Finset.univ : Finset (Fin 1000)) ⟨0, Finset.mem_univ _⟩ (fun r => z (b + r.val))
  refine ⟨μc, ?_⟩
  rw [show (fun r : Fin 1000 => k0_pay12 (F := Ideal) x0 x1 x2 x3 x4 (ix2 r (0 : Fin 1)))
    = fun r => ((z (b + r.val) : ℝ) : EReal) from funext hz]
  exact hμc

include hz hh in
/-- Once the new shift μ' and the rescaling factor α are known, the two new sums follow. -/
theorem sums_of (xs0 xs1 : Vec Ideal S1x1 .f32) (xs2 : Vec Ideal S1x768 .f32) (μ' : ℝ) (α l0 : EReal) (w0 : Fin 768 → EReal)
    (hM : k0_pay13 (F := Ideal) x0 x1 x2 x3 x4 xs0 o2 = (μ' : EReal))
    (hα : k0_pay14 (F := Ideal) x0 x1 x2 x3 x4 xs0 o2 = α) (h1 : xs1 o2 = l0) (h2 : ∀ e, xs2 (ix2 (0 : Fin 1) e) = w0 e) :
    stepM x0 x1 x2 x3 x4 xs0 o2 = (μ' : EReal)
    ∧ stepL x0 x1 x2 x3 x4 xs0 xs1 o2 = α * l0 + ((∑ r : Fin 1000, Real.exp (z (b + r.val) - μ') : ℝ) : EReal)
    ∧ ∀ e : Fin 768, stepW x0 x1 x2 x3 x4 xs0 xs2 (ix2 (0 : Fin 1) e)
        = α * w0 e + ((∑ r : Fin 1000, Real.exp (z (b + r.val) - μ') * h e (b + r.val) : ℝ) : EReal) := by
  have hp : ∀ r : Fin 1000, k0_pay1 (F := Ideal) (k0_pay12 x0 x1 x2 x3 x4) (k0_pay15 x0 x1 x2 x3 x4 xs0) (ix2 r (0 : Fin 1))
      = ((Real.exp (z (b + r.val) - μ') : ℝ) : EReal) := by
    intro r
    rw [weight_apply, hz r, spread_apply, hM, ← EReal.coe_sub, Ideal.exp_coe]
  refine ⟨?_, ?_, ?_⟩
  · unfold stepM
    rw [keep_apply]
    exact hM
  · unfold stepL
    rw [lsum_apply, hα, h1, coe_sum]
    exact congrArg (α * l0 + ·) (Finset.sum_congr rfl fun r _ => hp r)
  · intro e
    unfold stepW
    rw [wsum_apply, hα, h2 e, coe_sum]
    refine congrArg (α * w0 e + ·) (Finset.sum_congr rfl fun r _ => ?_)
    rw [hp r, hh r e, EReal.coe_mul]

include hz hh in
/-- A LATER BLOCK of a core: from the state of rows a ≤ n < b to the state of rows a ≤ n < b + 1000. -/
theorem step_cont {a : ℕ} (hab : a ≤ b) (xs0 xs1 : Vec Ideal S1x1 .f32) (xs2 : Vec Ideal S1x768 .f32)
    (H : Holds z h a b xs0 xs1 xs2) :
    Holds z h a (b + 1000) (stepM x0 x1 x2 x3 x4 xs0) (stepL x0 x1 x2 x3 x4 xs0 xs1) (stepW x0 x1 x2 x3 x4 xs0 xs2) := by
  obtain ⟨μ, h0, h1, h2⟩ := H
  obtain ⟨μc, hμc⟩ := block_max x0 x1 x2 x3 x4 z b hz
  have hM : k0_pay13 (F := Ideal) x0 x1 x2 x3 x4 xs0 o2 = ((max μ μc : ℝ) : EReal) := by
    rw [shift_apply, h0, hμc, coe_max]
  have hα : k0_pay14 (F := Ideal) x0 x1 x2 x3 x4 xs0 o2 = ((Real.exp (μ - max μ μc) : ℝ) : EReal) := by
    rw [scale_apply, hM, h0, ← EReal.coe_sub, Ideal.exp_coe]
  obtain ⟨r0, r1, r2⟩ := sums_of x0 x1 x2 x3 x4 z h b hz hh xs0 xs1 xs2 (max μ μc) _ _ _ hM hα h1 h2
  refine ⟨max μ μc, r0, ?_, fun e => ?_⟩
  · rw [r1, ← EReal.coe_mul, ← EReal.coe_add, lsum_step z hab 1000 μ (max μ μc)]
  · rw [r2 e, ← EReal.coe_mul, ← EReal.coe_add, wsum_step z (h e) hab 1000 μ (max μ μc)]

include hz hh in
/-- A CORE'S FIRST BLOCK: from the shift −∞ and zero sums to the state of rows b ≤ n < b + 1000. -/
theorem step_init (xs0 xs1 : Vec Ideal S1x1 .f32) (xs2 : Vec Ideal S1x768 .f32)
    (h0 : xs0 o2 = ⊥) (h1 : xs1 o2 = 0) (h2 : ∀ e : Fin 768, xs2 (ix2 (0 : Fin 1) e) = 0) :
    Holds z h b (b + 1000) (stepM x0 x1 x2 x3 x4 xs0) (stepL x0 x1 x2 x3 x4 xs0 xs1) (stepW x0 x1 x2 x3 x4 xs0 xs2) := by
  obtain ⟨μc, hμc⟩ := block_max x0 x1 x2 x3 x4 z b hz
  have hM : k0_pay13 (F := Ideal) x0 x1 x2 x3 x4 xs0 o2 = (μc : EReal) := by
    rw [shift_apply, h0, hμc, max_bot_left]
  have hα : k0_pay14 (F := Ideal) x0 x1 x2 x3 x4 xs0 o2 = 0 := by
    rw [scale_apply, hM, h0, EReal.bot_sub, Ideal.exp_bot]
  obtain ⟨r0, r1, r2⟩ := sums_of x0 x1 x2 x3 x4 z h b hz hh xs0 xs1 xs2 μc _ _ _ hM hα h1 h2
  refine ⟨μc, r0, ?_, fun e => ?_⟩
  · rw [r1, zero_mul, zero_add, lsum_first]
  · rw [r2 e, zero_mul, zero_add, wsum_first]

end

end Cert.KernelIdeal.Step

end
-- ==== Proof.KernelInvariant.lean ====
/-
  The running state after every grid point. Point t = 25·c + i is core c's block i: the bag's rows 1000·t … 1000·t + 999.
  After it the three carried values are the state of the rows 25000·c ≤ n < 1000·(t + 1) — by induction on the point, the
  first block of each core starting afresh — and after a core's last block the three output blocks hold copies of them.
-/
import proofs.«161586_j65197603554154_2_alg».proof.Proof.KernelBlocks
import proofs.«161586_j65197603554154_2_alg».proof.Proof.KernelStep
import proofs.«161586_j65197603554154_2_alg».proof.Proof.PoolNet

noncomputable section

open Idealize.ShloMosaic Idealize.ShloMosaic.TcCoe Idealize.SL.Sem
open Idealize.ShloMosaic.Pipeline (Dat)

namespace Cert.KernelIdeal.Inv

open Cert.KernelIdeal Cert.KernelIdeal.Gen Idealize.ShloMosaic.ValueIdx
open Cert.KernelIdeal.Tile Cert.KernelIdeal.Pieces Cert.KernelIdeal.Blocks Cert.KernelIdeal.Step Cert.Pool

variable (m : (ℓ : Loc nD τ sig) → Buf (Elt Ideal) ℓ)

/-! ## The six argument arrays -/

abbrev aX (c : Dev nD) : SX.Idx → EReal := m ((c : Thread nD τ).loc main_arg0)
abbrev aW (c : Dev nD) : SW.Idx → EReal := m ((c : Thread nD τ).loc main_arg1)
abbrev aB (c : Dev nD) : SB.Idx → EReal := m ((c : Thread nD τ).loc main_arg2)
abbrev aWa (c : Dev nD) : SA.Idx → EReal := m ((c : Thread nD τ).loc main_arg3)
abbrev aWb (c : Dev nD) : SA.Idx → EReal := m ((c : Thread nD τ).loc main_arg4)
abbrev aWc (c : Dev nD) : SC.Idx → EReal := m ((c : Thread nD τ).loc main_arg5)

/-- The arguments hold real numbers only. -/
abbrev Fin' (c : Dev nD) : Prop := Finite (aX m c) (aW m c) (aB m c) (aWa m c) (aWb m c) (aWc m c)

/-! ## A block's features and logits are the bag's -/

theorem feat_tile (c : Dev nD) (t : Fin cfg0.N) (r : Fin 1000) (e : Fin 768) (n : Fin 50000) (hn : n.val = 1000 * t.val + r.val) :
    k0_pay11 (F := Ideal) (iblk m c 0 t) (iblk m c 1 t) (iblk m c 2 t) (ix2 r e) = feat (aX m c) (aW m c) (aB m c) n e := by
  refine (feat_apply (iblk m c 0 t) (iblk m c 1 t) (iblk m c 2 t) r e).trans ?_
  unfold feat
  refine congrArg₂ max (congrArg₂ (· + ·) (Finset.sum_congr rfl fun d _ => ?_) (b_block m c t e)) rfl
  exact congrArg₂ (· * ·) (x_block m c t r d n hn) (w_block m c t d e)

theorem logit_tile (c : Dev nD) (t : Fin cfg0.N) (r : Fin 1000) (n : Fin 50000) (hn : n.val = 1000 * t.val + r.val) :
    k0_pay12 (F := Ideal) (iblk m c 0 t) (iblk m c 1 t) (iblk m c 2 t) (iblk m c 3 t) (iblk m c 4 t) (ix2 r (0 : Fin 1))
      = logit (aX m c) (aW m c) (aB m c) (aWa m c) (aWb m c) (aWc m c) n := by
  refine (logit_apply (iblk m c 0 t) (iblk m c 1 t) (iblk m c 2 t) (iblk m c 3 t) (iblk m c 4 t) r).trans ?_
  unfold logit gate
  refine Finset.sum_congr rfl fun k _ => congrArg₂ (· * ·) (congrArg₂ (· * ·) ?_ ?_) (c_block m c t k)
  · refine congrArg₂ max (Finset.sum_congr rfl fun d _ => ?_) rfl
    exact congrArg₂ (· * ·) (feat_tile m c t r d n hn) (ab_block_left m c t d k _ rfl)
  · refine congrArg Ideal.logistic (Finset.sum_congr rfl fun d _ => ?_)
    exact congrArg₂ (· * ·) (feat_tile m c t r d n hn) (ab_block_right m c t d k _ rfl)

/-! ## The three carried values after a point, case by case -/

theorem scratch_A (c : Dev nD) (t : Fin cfg0.N) (h0 : t.val % 25 = 0) (h1 : ¬t.val % 25 = 24) :
    (outsAt0 m c t.val t.isLt).2.2.2.1 = stepM (iblk m c 0 t) (iblk m c 1 t) (iblk m c 2 t) (iblk m c 3 t) (iblk m c 4 t) (k0_pay8 (F := Ideal))
    ∧ (outsAt0 m c t.val t.isLt).2.2.2.2.1 = stepL (iblk m c 0 t) (iblk m c 1 t) (iblk m c 2 t) (iblk m c 3 t) (iblk m c 4 t) (k0_pay8 (F := Ideal)) (k0_pay9 (F := Ideal))
    ∧ (outsAt0 m c t.val t.isLt).2.2.2.2.2 = stepW (iblk m c 0 t) (iblk m c 1 t) (iblk m c 2 t) (iblk m c 3 t) (iblk m c 4 t) (k0_pay8 (F := Ideal)) (k0_pay10 (F := Ideal)) := by
  rw [outsAt0_A m c t h0 h1]
  dsimp only
  refine ⟨?_, ?_, ?_⟩
  · exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  · exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)
  · exact sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)

theorem scratch_B (c : Dev nD) (t : Fin cfg0.N) (h0 : ¬t.val % 25 = 0) (h1 : ¬t.val % 25 = 24) :
    (outsAt0 m c t.val t.isLt).2.2.2.1 = stepM (iblk m c 0 t) (iblk m c 1 t) (iblk m c 2 t) (iblk m c 3 t) (iblk m c 4 t) (outsAt0 m c (t.val - 1) (Nat.lt_of_le_of_lt (Nat.sub_le _ _) t.isLt)).2.2.2.1
    ∧ (outsAt0 m c t.val t.isLt).2.2.2.2.1 = stepL (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = stepW (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2 := by
  rw [outsAt0_B m c t h0 h1]
  dsimp only
  refine ⟨?_, ?_, ?_⟩
  · exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem scratch_C (c : Dev nD) (t : Fin cfg0.N) (h0 : ¬t.val % 25 = 0) (h1 : t.val % 25 = 24) :
    ((outsAt0 m c t.val t.isLt).2.2.2.1 = stepM (iblk m c 0 t) (iblk m c 1 t) (iblk m c 2 t) (iblk m c 3 t) (iblk m c 4 t) (outsAt0 m c (t.val - 1) (Nat.lt_of_le_of_lt (Nat.sub_le _ _) t.isLt)).2.2.2.1
    ∧ (outsAt0 m c t.val t.isLt).2.2.2.2.1 = stepL (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1
    ∧ (outsAt0 m c t.val t.isLt).2.2.2.2.2 = stepW (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2)
    ∧ ((outsAt0 m c t.val t.isLt).1 = k0_pay5 (stepM (iblk m c 0 t) (iblk m c 1 t) (iblk m c 2 t) (iblk m c 3 t) (iblk m c 4 t) (outsAt0 m c (t.val - 1) (Nat.lt_of_le_of_lt (Nat.sub_le _ _) t.isLt)).2.2.2.1)
    ∧ (outsAt0 m c t.val t.isLt).2.1 = k0_pay6 (stepL (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1)
    ∧ (outsAt0 m c t.val t.isLt).2.2.1 = k0_pay7 (stepW (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2)) := by
  rw [outsAt0_C m c t h0 h1]
  dsimp only
  refine ⟨⟨?_, ?_, ?_⟩, ?_, ?_, ?_⟩
  · exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

/-! ## The state after every point -/

theorem Holds.cast {z : ℕ → ℝ} {h : Fin 768 → ℕ → ℝ} {a b a' b' : ℕ} {s0 s1 : Vec Ideal S1x1 .f32} {s2 : Vec Ideal S1x768 .f32}
    (ha : a = a') (hb : b = b') (H : Holds z h a b s0 s1 s2) : Holds z h a' b' s0 s1 s2 := ha ▸ hb ▸ H

theorem Holds.of_eq {z : ℕ → ℝ} {h : Fin 768 → ℕ → ℝ} {a b : ℕ} {s0 s0' s1 s1' : Vec Ideal S1x1 .f32} {s2 s2' : Vec Ideal S1x768 .f32}
    (e0 : s0' = s0) (e1 : s1' = s1) (e2 : s2' = s2) (H : Holds z h a b s0 s1 s2) : Holds z h a b s0' s1' s2' := by
  subst e0 e1 e2; exact H

/-- The bag's logits and features as real numbers (the arguments being real). -/
abbrev Z (c : Dev nD) : ℕ → ℝ := zR (aX m c) (aW m c) (aB m c) (aWa m c) (aWb m c) (aWc m c)
abbrev Hf (c : Dev nD) : Fin 768 → ℕ → ℝ := hR (aX m c) (aW m c) (aB m c)

theorem hz_tile (c : Dev nD) (hF : Fin' m c) (t : Fin cfg0.N) (r : Fin 1000) :
    k0_pay12 (F := Ideal) (iblk m c 0 t) (iblk m c 1 t) (iblk m c 2 t) (iblk m c 3 t) (iblk m c 4 t) (ix2 r (0 : Fin 1)) = ((Z m c (1000 * t.val + r.val) : ℝ) : EReal) := by
  have hN : t.val < 50 := lt_of_lt_of_eq t.isLt N_0
  have hlt : 1000 * t.val + r.val < 50000 := by have := r.isLt; omega
  exact (logit_tile m c t r ⟨1000 * t.val + r.val, hlt⟩ rfl).trans (logit_eq hF _)

theorem hh_tile (c : Dev nD) (hF : Fin' m c) (t : Fin cfg0.N) (r : Fin 1000) (e : Fin 768) :
    k0_pay11 (F := Ideal) (iblk m c 0 t) (iblk m c 1 t) (iblk m c 2 t) (ix2 r e) = ((Hf m c e (1000 * t.val + r.val) : ℝ) : EReal) := by
  have hN : t.val < 50 := lt_of_lt_of_eq t.isLt N_0
  have hlt : 1000 * t.val + r.val < 50000 := by have := r.isLt; omega
  exact (feat_tile m c t r e ⟨1000 * t.val + r.val, hlt⟩ rfl).trans (feat_eq hF _ e)

/-- THE INVARIANT: after point n the carried values are the state of the rows of its core up to its block's end. -/
theorem state_at (c : Dev nD) (hF : Fin' m c) : ∀ (n : ℕ) (hn : n < cfg0.N),
    Holds (Z m c) (Hf m c) (25000 * (n / 25)) (1000 * (n + 1))
      (outsAt0 m c n hn).2.2.2.1 (outsAt0 m c n hn).2.2.2.2.1 (outsAt0 m c n hn).2.2.2.2.2
  | 0, hn => by
    obtain ⟨e0, e1, e2⟩ := scratch_A m c ⟨0, hn⟩ rfl (by show ¬((0 : ℕ) % 25 = 24); decide)
    refine Holds.of_eq e0 e1 e2 (Holds.cast (by omega) (by omega)
      (step_init (iblk m c 0 ⟨0, hn⟩) (iblk m c 1 ⟨0, hn⟩) (iblk m c 2 ⟨0, hn⟩) (iblk m c 3 ⟨0, hn⟩) (iblk m c 4 ⟨0, hn⟩) (Z m c) (Hf m c) (1000 * 0)
        (hz_tile m c hF ⟨0, hn⟩) (hh_tile m c hF ⟨0, hn⟩) _ _ _ (init_shift _) (init_lsum _) (fun e => init_wsum _)))
  | n + 1, hn => by
    have hN : n + 1 < 50 := lt_of_lt_of_eq hn N_0
    have ih := state_at c hF n (Nat.lt_of_succ_lt hn)
    by_cases h0 : (n + 1) % 25 = 0
    · have h1 : ¬(n + 1) % 25 = 24 := by omega
      obtain ⟨e0, e1, e2⟩ := scratch_A m c ⟨n + 1, hn⟩ h0 h1
      refine Holds.of_eq e0 e1 e2 (Holds.cast (by omega) (by omega)
        (step_init (iblk m c 0 ⟨n + 1, hn⟩) (iblk m c 1 ⟨n + 1, hn⟩) (iblk m c 2 ⟨n + 1, hn⟩) (iblk m c 3 ⟨n + 1, hn⟩) (iblk m c 4 ⟨n + 1, hn⟩) (Z m c) (Hf m c) (1000 * (n + 1))
          (hz_tile m c hF ⟨n + 1, hn⟩) (hh_tile m c hF ⟨n + 1, hn⟩) _ _ _ (init_shift _) (init_lsum _) (fun e => init_wsum _)))
    · by_cases h1 : (n + 1) % 25 = 24
      · obtain ⟨⟨e0, e1, e2⟩, _⟩ := scratch_C m c ⟨n + 1, hn⟩ h0 h1
        refine Holds.of_eq e0 e1 e2 (Holds.cast (by omega) (by omega)
          (step_cont (iblk m c 0 ⟨n + 1, hn⟩) (iblk m c 1 ⟨n + 1, hn⟩) (iblk m c 2 ⟨n + 1, hn⟩) (iblk m c 3 ⟨n + 1, hn⟩) (iblk m c 4 ⟨n + 1, hn⟩) (Z m c) (Hf m c) (1000 * (n + 1))
            (hz_tile m c hF ⟨n + 1, hn⟩) (hh_tile m c hF ⟨n + 1, hn⟩) (a := 25000 * (n / 25)) (by omega) _ _ _ ih))
      · obtain ⟨e0, e1, e2⟩ := scratch_B m c ⟨n + 1, hn⟩ h0 h1
        refine Holds.of_eq e0 e1 e2 (Holds.cast (by omega) (by omega)
          (step_cont (iblk m c 0 ⟨n + 1, hn⟩) (iblk m c 1 ⟨n + 1, hn⟩) (iblk m c 2 ⟨n + 1, hn⟩) (iblk m c 3 ⟨n + 1, hn⟩) (iblk m c 4 ⟨n + 1, hn⟩) (Z m c) (Hf m c) (1000 * (n + 1))
            (hz_tile m c hF ⟨n + 1, hn⟩) (hh_tile m c hF ⟨n + 1, hn⟩) (a := 25000 * (n / 25)) (by omega) _ _ _ ih))

/-- After a core's last block the three output blocks hold the carried values. -/
theorem outs_at (c : Dev nD) (t : Fin cfg0.N) (h1 : t.val % 25 = 24) :
    (∀ u a b : Fin 1, (outsAt0 m c t.val t.isLt).1 (ix3 u a b) = (outsAt0 m c t.val t.isLt).2.2.2.1 o2)
    ∧ (∀ u a b : Fin 1, (outsAt0 m c t.val t.isLt).2.1 (ix3 u a b) = (outsAt0 m c t.val t.isLt).2.2.2.2.1 o2)
    ∧ (∀ (u a : Fin 1) (e : Fin 768), (outsAt0 m c t.val t.isLt).2.2.1 (ix3 u a e) = (outsAt0 m c t.val t.isLt).2.2.2.2.2 (ix2 (0 : Fin 1) e)) := by
  have h0 : ¬t.val % 25 = 0 := by omega
  obtain ⟨⟨e0, e1, e2⟩, e5, e6, e7⟩ := scratch_C m c t h0 h1
  refine ⟨fun u a b => ?_, fun u a b => ?_, fun u a e => ?_⟩
  · rw [e5, e0]; exact emit1_apply _ u a b
  · rw [e6, e1]; exact emit2_apply _ u a b
  · rw [e7, e2]; exact emit3_apply _ u a e

end Cert.KernelIdeal.Inv

end
-- ==== Proof.KernelFinal.lean ====
/-
  The three output arrays after the call — row c of each holds core c's final shift, weight sum and weighted feature
  sums — and the host's merge of the two cores' partial states into the pooled result.
-/
import proofs.«161586_j65197603554154_2_alg».proof.Proof.KernelInvariant
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx
open Cert.KernelIdeal.Tile Cert.KernelIdeal.Blocks Cert.KernelIdeal.Step Cert.KernelIdeal.Inv Cert.Pool

variable (m : (ℓ : Loc nD τ sig) → Buf (Elt Ideal) ℓ)

/-! ## The carried values after point n, as numbers -/

def m_at (c : Dev nD) (n : ℕ) : EReal := if h : n < cfg0.N then (outsAt0 m c n h).2.2.2.1 o2 else 0
def l_at (c : Dev nD) (n : ℕ) : EReal := if h : n < cfg0.N then (outsAt0 m c n h).2.2.2.2.1 o2 else 0
def w_at (c : Dev nD) (n : ℕ) (e : Fin 768) : EReal :=
  if h : n < cfg0.N then (outsAt0 m c n h).2.2.2.2.2 (ix2 (0 : Fin 1) e) else 0

/-- The three output arrays: row k holds the values after core k's last block, point 25·k + 24. -/
def G5 (c : Dev nD) : S2x1x1.Idx → EReal := fun i => m_at m c (25 * (i 0).val + 24)
def G6 (c : Dev nD) : S2x1x1.Idx → EReal := fun i => l_at m c (25 * (i 0).val + 24)
def G7 (c : Dev nD) : S2x1x768.Idx → EReal := fun i => w_at m c (25 * (i 0).val + 24) (i 2)

/-! ## Where the output blocks sit -/

theorem index5 : ∀ t : Fin cfg0.N, win0_5.index t (0 : Fin 3) = t.val / 25 ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val / 25 ∧ win0_6.index t (1 : Fin 3) = 0 ∧ win0_6.index t (2 : Fin 3) = 0 :=
  (by decide +kernel : ∀ t : Fin grid0.N, _)
theorem index7 : ∀ t : Fin cfg0.N, win0_7.index t (0 : Fin 3) = t.val / 25 ∧ win0_7.index t (1 : Fin 3) = 0 ∧ win0_7.index t (2 : Fin 3) = 0 :=
  (by decide +kernel : ∀ t : Fin grid0.N, _)

/-- After a core's last block every entry of the three output blocks is the matching carried value. -/
theorem out5_any (c : Dev nD) (t : Fin cfg0.N) (h24 : t.val % 25 = 24) (j : S1x1x1.Idx) :
    (outsAt0 m c t.val t.isLt).1 j = (outsAt0 m c t.val t.isLt).2.2.2.1 o2 :=
  (congrArg (outsAt0 m c t.val t.isLt).1 (eq_ix3 j)).trans ((outs_at m c t h24).1 (j 0) (j 1) (j 2))

theorem out6_any (c : Dev nD) (t : Fin cfg0.N) (h24 : t.val % 25 = 24) (j : S1x1x1.Idx) :
    (outsAt0 m c t.val t.isLt).2.1 j = (outsAt0 m c t.val t.isLt).2.2.2.2.1 o2 :=
  (congrArg (outsAt0 m c t.val t.isLt).2.1 (eq_ix3 j)).trans ((outs_at m c t h24).2.1 (j 0) (j 1) (j 2))

theorem out7_any (c : Dev nD) (t : Fin cfg0.N) (h24 : t.val % 25 = 24) (j : S1x1x768.Idx) :
    (outsAt0 m c t.val t.isLt).2.2.1 j = (outsAt0 m c t.val t.isLt).2.2.2.2.2 (ix2 (0 : Fin 1) (j 2)) :=
  (congrArg (outsAt0 m c t.val t.isLt).2.2.1 (eq_ix3 j)).trans ((outs_at m c t h24).2.2 (j 0) (j 1) (j 2))

/-- What a core's last point writes back into output 5 is its block of the array above. -/
theorem flushed5 (c : Dev nD) (t : Fin cfg0.N) (hf : (cfg0.win 5).flush t = true) :
    (dats m 0 c).flushed 5 t = ((cfg0.win 5).blk t).view.read (Elt Ideal) (G5 m c) := by
  have h24 := (flush0_5 t).mp hf
  have hi := index5 t
  show (cfg0.win 5).cut (grid0.coords t) ((dats m 0 c).after 5 t) = _
  rw [after0_5]
  funext y
  rw [View.read_apply]
  show (outsAt0 m c t.val t.isLt).1 _ = G5 m c _
  refine (out5_any m c t h24 _).trans ?_
  unfold G5 m_at
  have he : 25 * ((((cfg0.win 5).blk t).view.emb y) 0).val + 24 = t.val := by
    show 25 * (win0_5.index t 0 * 1 + 1 * (y 0).val) + 24 = t.val
    have hy : (y 0).val < 1 := (y 0).isLt
    rw [hi.1]; omega
  rw [he, dif_pos t.isLt]

theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v9_0).slice (win0_5.rect t)).set ↔ _
  rw [View.set_slice_whole, Rect.mem_set_unit]
  exact Iff.rfl

/-- Every entry of output 5's array is in the block some core's last point writes back. -/
theorem cover5 (i : S2x1x1.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 1 := (i 2).isLt
  have hN : cfg0.N = 50 := N_0
  refine ⟨⟨25 * (i 0).val + 24, by omega⟩, (flush0_5 _).mpr (by show (25 * (i 0).val + 24) % 25 = 24; omega), ?_⟩
  rw [mem_blk5]
  obtain ⟨e0, e1, e2⟩ := index5 ⟨25 * (i 0).val + 24, by omega⟩
  intro a
  match a with
  | ⟨0, _⟩ => show win0_5.index _ 0 * 1 ≤ (i 0).val ∧ (i 0).val < win0_5.index _ 0 * 1 + 1; rw [e0]; show (25 * (i 0).val + 24) / 25 * 1 ≤ (i 0).val ∧ (i 0).val < (25 * (i 0).val + 24) / 25 * 1 + 1; omega
  | ⟨1, _⟩ => show win0_5.index _ 1 * 1 ≤ (i 1).val ∧ (i 1).val < win0_5.index _ 1 * 1 + 1; rw [e1]; omega
  | ⟨2, _⟩ => show win0_5.index _ 2 * 1 ≤ (i 2).val ∧ (i 2).val < win0_5.index _ 2 * 1 + 1; rw [e2]; omega

/-- So output 5's array ends holding the array above. -/
theorem final5 (c : Dev nD) : (dats m 0 c).arrAt 5 cfg0.N = G5 m c :=
  (dats m 0 c).arrAt_eq_of_cover 5 _ (flushed5 m c) (cover5)

/-- What a core's last point writes back into output 6 is its block of the array above. -/
theorem flushed6 (c : Dev nD) (t : Fin cfg0.N) (hf : (cfg0.win 6).flush t = true) :
    (dats m 0 c).flushed 6 t = ((cfg0.win 6).blk t).view.read (Elt Ideal) (G6 m c) := by
  have h24 := (flush0_6 t).mp hf
  have hi := index6 t
  show (cfg0.win 6).cut (grid0.coords t) ((dats m 0 c).after 6 t) = _
  rw [after0_6]
  funext y
  rw [View.read_apply]
  show (outsAt0 m c t.val t.isLt).2.1 _ = G6 m c _
  refine (out6_any m c t h24 _).trans ?_
  unfold G6 l_at
  have he : 25 * ((((cfg0.win 6).blk t).view.emb y) 0).val + 24 = t.val := by
    show 25 * (win0_6.index t 0 * 1 + 1 * (y 0).val) + 24 = t.val
    have hy : (y 0).val < 1 := (y 0).isLt
    rw [hi.1]; omega
  rw [he, dif_pos t.isLt]

theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v9_1).slice (win0_6.rect t)).set ↔ _
  rw [View.set_slice_whole, Rect.mem_set_unit]
  exact Iff.rfl

/-- Every entry of output 6's array is in the block some core's last point writes back. -/
theorem cover6 (i : S2x1x1.Idx) : ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  have hN : cfg0.N = 50 := N_0
  refine ⟨⟨25 * (i 0).val + 24, by omega⟩, (flush0_6 _).mpr (by show (25 * (i 0).val + 24) % 25 = 24; omega), ?_⟩
  rw [mem_blk6]
  obtain ⟨e0, e1, e2⟩ := index6 ⟨25 * (i 0).val + 24, by omega⟩
  intro a
  match a with
  | ⟨0, _⟩ => show win0_6.index _ 0 * 1 ≤ (i 0).val ∧ (i 0).val < win0_6.index _ 0 * 1 + 1; rw [e0]; show (25 * (i 0).val + 24) / 25 * 1 ≤ (i 0).val ∧ (i 0).val < (25 * (i 0).val + 24) / 25 * 1 + 1; omega
  | ⟨1, _⟩ => show win0_6.index _ 1 * 1 ≤ (i 1).val ∧ (i 1).val < win0_6.index _ 1 * 1 + 1; rw [e1]; omega
  | ⟨2, _⟩ => show win0_6.index _ 2 * 1 ≤ (i 2).val ∧ (i 2).val < win0_6.index _ 2 * 1 + 1; rw [e2]; omega

/-- So output 6's array ends holding the array above. -/
theorem final6 (c : Dev nD) : (dats m 0 c).arrAt 6 cfg0.N = G6 m c :=
  (dats m 0 c).arrAt_eq_of_cover 6 _ (flushed6 m c) (cover6)

/-- What a core's last point writes back into output 7 is its block of the array above. -/
theorem flushed7 (c : Dev nD) (t : Fin cfg0.N) (hf : (cfg0.win 7).flush t = true) :
    (dats m 0 c).flushed 7 t = ((cfg0.win 7).blk t).view.read (Elt Ideal) (G7 m c) := by
  have h24 := (flush0_7 t).mp hf
  have hi := index7 t
  show (cfg0.win 7).cut (grid0.coords t) ((dats m 0 c).after 7 t) = _
  rw [after0_7]
  funext y
  rw [View.read_apply]
  show (outsAt0 m c t.val t.isLt).2.2.1 _ = G7 m c _
  refine (out7_any m c t h24 _).trans ?_
  unfold G7 w_at
  have he : 25 * ((((cfg0.win 7).blk t).view.emb y) 0).val + 24 = t.val := by
    show 25 * (win0_7.index t 0 * 1 + 1 * (y 0).val) + 24 = t.val
    have hy : (y 0).val < 1 := (y 0).isLt
    rw [hi.1]; omega
  rw [he, dif_pos t.isLt]
  refine congrArg (outsAt0 m c t.val t.isLt).2.2.2.2.2 (congrArg (ix2 (0 : Fin 1)) (Fin.ext ?_))
  show ((cfg0.win 7).xinj (grid0.coords t) y 2).val = win0_7.index t 2 * 768 + 1 * (y 2).val
  rw [hi.2.2]
  show (y 2).val = 0 * 768 + 1 * (y 2).val
  omega

theorem mem_blk7 (t : Fin cfg0.N) (i : S2x1x768.Idx) :
    i ∈ ((cfg0.win 7).blk t).view.set ↔ ∀ a : Fin 3, win0_7.index t a * S1x1x768.size a ≤ (i a).val ∧ (i a).val < win0_7.index t a * S1x1x768.size a + S1x1x768.size a := by
  show i ∈ ((View.whole main_v9_2).slice (win0_7.rect t)).set ↔ _
  rw [View.set_slice_whole, Rect.mem_set_unit]
  exact Iff.rfl

/-- Every entry of output 7's array is in the block some core's last point writes back. -/
theorem cover7 (i : S2x1x768.Idx) : ∃ t : Fin cfg0.N, (cfg0.win 7).flush t = true ∧ i ∈ ((cfg0.win 7).blk t).view.set := by
  have h0 : (i 0).val < 2 := (i 0).isLt
  have h1 : (i 1).val < 1 := (i 1).isLt
  have h2 : (i 2).val < 768 := (i 2).isLt
  have hN : cfg0.N = 50 := N_0
  refine ⟨⟨25 * (i 0).val + 24, by omega⟩, (flush0_7 _).mpr (by show (25 * (i 0).val + 24) % 25 = 24; omega), ?_⟩
  rw [mem_blk7]
  obtain ⟨e0, e1, e2⟩ := index7 ⟨25 * (i 0).val + 24, by omega⟩
  intro a
  match a with
  | ⟨0, _⟩ => show win0_7.index _ 0 * 1 ≤ (i 0).val ∧ (i 0).val < win0_7.index _ 0 * 1 + 1; rw [e0]; show (25 * (i 0).val + 24) / 25 * 1 ≤ (i 0).val ∧ (i 0).val < (25 * (i 0).val + 24) / 25 * 1 + 1; omega
  | ⟨1, _⟩ => show win0_7.index _ 1 * 1 ≤ (i 1).val ∧ (i 1).val < win0_7.index _ 1 * 1 + 1; rw [e1]; omega
  | ⟨2, _⟩ => show win0_7.index _ 2 * 768 ≤ (i 2).val ∧ (i 2).val < win0_7.index _ 2 * 768 + 768; rw [e2]; omega

/-- So output 7's array ends holding the array above. -/
theorem final7 (c : Dev nD) : (dats m 0 c).arrAt 7 cfg0.N = G7 m c :=
  (dats m 0 c).arrAt_eq_of_cover 7 _ (flushed7 m c) (cover7)

/-! ## The host's merge of the two cores' partial states -/

/-- The lines after the call, as one function of the three output arrays: take each array's two rows apart, bring both
    cores' sums to the larger of the two shifts, add them, and divide. -/
def merge (M L : FVec Ideal S2x1x1 .f32) (A : FVec Ideal S2x1x768 .f32) : FVec Ideal S1x768 .f32 :=
  let m0 : FVec Ideal S_ .f32 := shapeCast S_ (extractStridedSlice S1x1x1 ![0, 0, 0] M slices_S2x1x1_S1x1x1_0_0_0) shapeCasts_S1x1x1_S_
  let m1 : FVec Ideal S_ .f32 := shapeCast S_ (extractStridedSlice S1x1x1 ![1, 0, 0] M slices_S2x1x1_S1x1x1_1_0_0) shapeCasts_S1x1x1_S_
  let l0 : FVec Ideal S_ .f32 := shapeCast S_ (extractStridedSlice S1x1x1 ![0, 0, 0] L slices_S2x1x1_S1x1x1_0_0_0) shapeCasts_S1x1x1_S_
  let l1 : FVec Ideal S_ .f32 := shapeCast S_ (extractStridedSlice S1x1x1 ![1, 0, 0] L slices_S2x1x1_S1x1x1_1_0_0) shapeCasts_S1x1x1_S_
  let a0 : FVec Ideal S768 .f32 := shapeCast S768 (extractStridedSlice S1x1x768 ![0, 0, 0] A slices_S2x1x768_S1x1x768_0_0_0) shapeCasts_S1x1x768_S768
  let a1 : FVec Ideal S768 .f32 := shapeCast S768 (extractStridedSlice S1x1x768 ![1, 0, 0] A slices_S2x1x768_S1x1x768_1_0_0) shapeCasts_S1x1x768_S768
  let α0 : FVec Ideal S_ .f32 := Host.exp (subf m0 (maximumf m0 m1))
  let α1 : FVec Ideal S_ .f32 := Host.exp (subf m1 (maximumf m0 m1))
  shapeCast S1x768
    (Host.divf (addf (mulf (broadcastInDim S768 ![] bcast_S_S768 α0) a0) (mulf (broadcastInDim S768 ![] bcast_S_S768 α1) a1))
      (broadcastInDim S768 ![] bcast_S_S768 (addf (mulf α0 l0) (mulf α1 l1))))
    shapeCasts_S768_S1x768

set_option maxHeartbeats 1000000 in
/-- The program's result is the merge of the three output arrays. -/
theorem tail_eq (c : Dev nD) :
    Pipeline.afterTail₀ cfgs (dats m) 0 (V0 m) [hostOps1] c main_v37 = merge (G5 m c) (G6 m c) (G7 m c) := by
  unfold Pipeline.afterTail₀
  rw [show ([hostOps1] : List (List (HloOp τ sig (Elt Ideal)))).flatten = hostOps1 from List.append_nil _]
  have e5 : Pipeline.withArrays (cfgs 0).spec c (V0 m c) (fun w => (dats m 0 c).arrAt w (cfgs 0).N) (Proc.devRef .tc main_v9_0) = G5 m c :=
    (Pipeline.withArrays_arr spec0 launch0.win.arr_inj c _ _ 5).trans (final5 m c)
  have e6 : Pipeline.withArrays (cfgs 0).spec c (V0 m c) (fun w => (dats m 0 c).arrAt w (cfgs 0).N) (Proc.devRef .tc main_v9_1) = G6 m c :=
    (Pipeline.withArrays_arr spec0 launch0.win.arr_inj c _ _ 6).trans (final6 m c)
  have e7 : Pipeline.withArrays (cfgs 0).spec c (V0 m c) (fun w => (dats m 0 c).arrAt w (cfgs 0).N) (Proc.devRef .tc main_v9_2) = G7 m c :=
    (Pipeline.withArrays_arr spec0 launch0.win.arr_inj c _ _ 7).trans (final7 m c)
  generalize Pipeline.withArrays (cfgs 0).spec c (V0 m c) (fun w => (dats m 0 c).arrAt w (cfgs 0).N) = WA at e5 e6 e7 ⊢
  after_results_simp
  rw [e5, e6, e7]
  rfl

/-! ### The merge, entry by entry -/

theorem scalar_row (X : FVec Ideal S2x1x1 .f32) (k : Fin 2) (off : Fin 3 → Nat) (hoff : off = ![k.val, 0, 0])
    (h : S2x1x1.Slices off S1x1x1) :
    shapeCast S_ (extractStridedSlice S1x1x1 off X h) shapeCasts_S1x1x1_S_ ix0 = X (ix3 k (0 : Fin 1) (0 : Fin 1)) := by
  subst hoff
  refine (shapeCast_apply _ shapeCasts_S1x1x1_S_ ix0 (ix3 (0 : Fin 1) (0 : Fin 1) (0 : Fin 1)) ?_).trans ?_
  · rw [Shape.rowMajor_val_three]; rfl
  · refine extractStridedSlice_apply _ X h _ (ix3 k (0 : Fin 1) (0 : Fin 1)) fun a => ?_
    match a with
    | ⟨0, _⟩ => rfl
    | ⟨1, _⟩ => rfl
    | ⟨2, _⟩ => rfl

theorem vector_row (X : FVec Ideal S2x1x768 .f32) (k : Fin 2) (off : Fin 3 → Nat) (hoff : off = ![k.val, 0, 0])
    (h : S2x1x768.Slices off S1x1x768) (e : Fin 768) :
    shapeCast S768 (extractStridedSlice S1x1x768 off X h) shapeCasts_S1x1x768_S768 (ix1 e) = X (ix3 k (0 : Fin 1) e) := by
  subst hoff
  refine (shapeCast_apply _ shapeCasts_S1x1x768_S768 (ix1 e) (ix3 (0 : Fin 1) (0 : Fin 1) e) ?_).trans ?_
  · rw [Shape.rowMajor_val_three, Shape.rowMajor_val_one]
    show (0 * 1 + 0) * 768 + e.val = e.val
    omega
  · refine extractStridedSlice_apply _ X h _ (ix3 k (0 : Fin 1) e) fun a => ?_
    match a with
    | ⟨0, _⟩ => rfl
    | ⟨1, _⟩ => rfl
    | ⟨2, _⟩ => show e.val = 0 + e.val; omega

theorem spread_scalar (α : FVec Ideal S_ .f32) (e : Fin 768) : broadcastInDim S768 ![] bcast_S_S768 α (ix1 e) = α ix0 :=
  broadcastInDim_apply ![] bcast_S_S768 α (ix1 e) ix0 (fun a => a.elim0)

/-- Feature e of the merge, in the two cores' shifts M₀, M₁, weight sums L₀, L₁ and weighted feature sums A₀, A₁. -/
theorem merge_apply (M L : FVec Ideal S2x1x1 .f32) (A : FVec Ideal S2x1x768 .f32) (e : Fin 768) :
    merge M L A (ix2 (0 : Fin 1) e)
      = Ideal.div
          (Ideal.exp (M (ix3 (0 : Fin 2) (0 : Fin 1) (0 : Fin 1)) - max (M (ix3 (0 : Fin 2) (0 : Fin 1) (0 : Fin 1))) (M (ix3 (1 : Fin 2) (0 : Fin 1) (0 : Fin 1))))
              * A (ix3 (0 : Fin 2) (0 : Fin 1) e)
            + Ideal.exp (M (ix3 (1 : Fin 2) (0 : Fin 1) (0 : Fin 1)) - max (M (ix3 (0 : Fin 2) (0 : Fin 1) (0 : Fin 1))) (M (ix3 (1 : Fin 2) (0 : Fin 1) (0 : Fin 1))))
              * A (ix3 (1 : Fin 2) (0 : Fin 1) e))
          (Ideal.exp (M (ix3 (0 : Fin 2) (0 : Fin 1) (0 : Fin 1)) - max (M (ix3 (0 : Fin 2) (0 : Fin 1) (0 : Fin 1))) (M (ix3 (1 : Fin 2) (0 : Fin 1) (0 : Fin 1))))
              * L (ix3 (0 : Fin 2) (0 : Fin 1) (0 : Fin 1))
            + Ideal.exp (M (ix3 (1 : Fin 2) (0 : Fin 1) (0 : Fin 1)) - max (M (ix3 (0 : Fin 2) (0 : Fin 1) (0 : Fin 1))) (M (ix3 (1 : Fin 2) (0 : Fin 1) (0 : Fin 1))))
              * L (ix3 (1 : Fin 2) (0 : Fin 1) (0 : Fin 1))) := by
  unfold merge
  dsimp only
  refine (shapeCast_a_1a_apply _ shapeCasts_S768_S1x768 (0 : Fin 1) e).trans ?_
  have hm0 := scalar_row M (0 : Fin 2) ![0, 0, 0] rfl slices_S2x1x1_S1x1x1_0_0_0
  have hm1 := scalar_row M (1 : Fin 2) ![1, 0, 0] rfl slices_S2x1x1_S1x1x1_1_0_0
  have hl0 := scalar_row L (0 : Fin 2) ![0, 0, 0] rfl slices_S2x1x1_S1x1x1_0_0_0
  have hl1 := scalar_row L (1 : Fin 2) ![1, 0, 0] rfl slices_S2x1x1_S1x1x1_1_0_0
  have ha0 := vector_row A (0 : Fin 2) ![0, 0, 0] rfl slices_S2x1x768_S1x1x768_0_0_0 e
  have ha1 := vector_row A (1 : Fin 2) ![1, 0, 0] rfl slices_S2x1x768_S1x1x768_1_0_0 e
  show Ideal.div (_ * _ + _ * _) _ = _
  rw [spread_scalar, spread_scalar, spread_scalar, ha0, ha1]
  show Ideal.div (Ideal.exp (_ - max _ _) * _ + Ideal.exp (_ - max _ _) * _)
    (Ideal.exp (_ - max _ _) * _ + Ideal.exp (_ - max _ _) * _) = _
  rw [hm0, hm1, hl0, hl1]

end Cert.KernelIdeal.Final
end
-- ==== Proof.KernelResult.lean ====
/-
  The kernel program's result: the merge of the two cores' final states is the pooled value, and the program's run
  ends with its result array holding it.
-/
import proofs.«161586_j65197603554154_2_alg».proof.Proof.KernelFinal

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx
open Cert.KernelIdeal.Tile Cert.KernelIdeal.Step Cert.KernelIdeal.Inv Cert.KernelIdeal.Final Cert.Pool

variable (m : (ℓ : Loc nD τ sig) → Buf (Elt Ideal) ℓ) (ρ : Dev nD → PrngReg)

/-- Two cores' states over the two halves of the bag, merged at the larger shift: the pooled value. -/
theorem merge_value (z h : ℕ → ℝ) (μ₀ μ₁ : ℝ) :
    Ideal.div
      (Ideal.exp ((μ₀ : EReal) - max (μ₀ : EReal) (μ₁ : EReal)) * ((wsum z h 0 25000 μ₀ : ℝ) : EReal)
        + Ideal.exp ((μ₁ : EReal) - max (μ₀ : EReal) (μ₁ : EReal)) * ((wsum z h 25000 50000 μ₁ : ℝ) : EReal))
      (Ideal.exp ((μ₀ : EReal) - max (μ₀ : EReal) (μ₁ : EReal)) * ((lsum z 0 25000 μ₀ : ℝ) : EReal)
        + Ideal.exp ((μ₁ : EReal) - max (μ₀ : EReal) (μ₁ : EReal)) * ((lsum z 25000 50000 μ₁ : ℝ) : EReal))
      = ((wsum z h 0 50000 0 / lsum z 0 50000 0 : ℝ) : EReal) := by
  rw [coe_max, ← EReal.coe_sub, ← EReal.coe_sub, Ideal.exp_coe, Ideal.exp_coe, ← EReal.coe_mul, ← EReal.coe_mul, ← EReal.coe_mul,
    ← EReal.coe_mul, ← EReal.coe_add, ← EReal.coe_add, wsum_merge z h (by norm_num) (by norm_num),
    lsum_merge z (by norm_num) (by norm_num), div_coe_coe _ (lsum_pos z (by norm_num) _).ne', pool_shift z h 0 50000 _ 0]

/-- THE KERNEL PROGRAM'S RESULT, feature e, is the pooled value (the arguments being real). -/
theorem kernel_value (c : Dev nD) (hF : Fin' m c) (e : Fin 768) :
    merge (G5 m c) (G6 m c) (G7 m c) (ix2 (0 : Fin 1) e)
      = pooled (aX m c) (aW m c) (aB m c) (aWa m c) (aWb m c) (aWc m c) e := by
  have hN : cfg0.N = 50 := N_0
  have h24 : 24 < cfg0.N := by rw [hN]; norm_num
  have h49 : 49 < cfg0.N := by rw [hN]; norm_num
  obtain ⟨μ₀, a0, a1, a2⟩ := Holds.cast (a' := 0) (b' := 25000) (by norm_num) (by norm_num) (state_at m c hF 24 h24)
  obtain ⟨μ₁, b0, b1, b2⟩ := Holds.cast (a' := 25000) (b' := 50000) (by norm_num) (by norm_num) (state_at m c hF 49 h49)
  have g50 : G5 m c (ix3 (0 : Fin 2) (0 : Fin 1) (0 : Fin 1)) = (μ₀ : EReal) := by
    show m_at m c 24 = _; unfold m_at; rw [dif_pos h24]; exact a0
  have g51 : G5 m c (ix3 (1 : Fin 2) (0 : Fin 1) (0 : Fin 1)) = (μ₁ : EReal) := by
    show m_at m c 49 = _; unfold m_at; rw [dif_pos h49]; exact b0
  have g60 : G6 m c (ix3 (0 : Fin 2) (0 : Fin 1) (0 : Fin 1)) = ((lsum (Z m c) 0 25000 μ₀ : ℝ) : EReal) := by
    show l_at m c 24 = _; unfold l_at; rw [dif_pos h24]; exact a1
  have g61 : G6 m c (ix3 (1 : Fin 2) (0 : Fin 1) (0 : Fin 1)) = ((lsum (Z m c) 25000 50000 μ₁ : ℝ) : EReal) := by
    show l_at m c 49 = _; unfold l_at; rw [dif_pos h49]; exact b1
  have g70 : G7 m c (ix3 (0 : Fin 2) (0 : Fin 1) e) = ((wsum (Z m c) (Hf m c e) 0 25000 μ₀ : ℝ) : EReal) := by
    show w_at m c 24 e = _; unfold w_at; rw [dif_pos h24]; exact a2 e
  have g71 : G7 m c (ix3 (1 : Fin 2) (0 : Fin 1) e) = ((wsum (Z m c) (Hf m c e) 25000 50000 μ₁ : ℝ) : EReal) := by
    show w_at m c 49 e = _; unfold w_at; rw [dif_pos h49]; exact b2 e
  rw [merge_apply, g50, g51, g60, g61, g70, g71]
  exact merge_value (Z m c) (Hf m c e) μ₀ μ₁

/-- The result array, whole. -/
theorem kernel_result (c : Dev nD) (hF : Fin' m c) :
    Pipeline.afterTail₀ cfgs (dats m) 0 (V0 m) [hostOps1] c main_v37
      = fun i : S1x768.Idx => pooled (aX m c) (aW m c) (aB m c) (aWa m c) (aWb m c) (aWc m c) (i 1) := by
  rw [tail_eq]
  funext i
  obtain ⟨u, e, rfl⟩ : ∃ (u : Fin 1) (e : Fin 768), i = ix2 u e := ⟨i 0, i 1, eq_ix2 i⟩
  obtain rfl : u = 0 := Fin.ext (by omega)
  exact kernel_value m c hF e

/-- THE RUN: every weakly fair execution of the kernel program terminates with the result array at the pooled values and
    the six arguments unchanged. -/
theorem run (hF : ∀ c, Fin' m c) :
    θ_run defs (onTc (τ := τ) (main (F := Ideal))) ⟨m, fun _ => 0, ρ⟩ (fun r => ∀ c : Dev nD,
      r.2.mem ((c.tc : Thread nD τ).loc main_v37)
          = (fun i : S1x768.Idx => pooled (aX m c) (aW m c) (aB m c) (aWa m c) (aWb m c) (aWc m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v37 (Pipeline.mem_restRefs_of main_v37 (by decide) (by decide))).trans (kernel_result m c (hF c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The certificate of the gated-attention pooling kernel against its reference.

  Both programs compute, for a bag of 50000 rows, the features F(n, ·) = max(x(n)·Wᵀ + b, 0), the logits
  z(n) = Σ_k max(F(n)·A(k), 0)·σ(F(n)·B(k))·c(k), and the softmax-weighted mean of the features, Σ_n softmax(z)(n)·F(n, ·).
  The reference normalizes the weights e^(z n − max z) by their sum and then sums the features; the kernel makes one pass
  per core over half of the bag, in blocks of 1000 rows, carrying a running shift and the two running sums, and the host
  merges the two cores' states and divides once. Over the extended reals, with every argument entry a real number (the
  precondition), all intermediate values are real numbers, the pooled value does not depend on the shift, and the two
  results are the same real number, feature by feature.

  The three frames: the kernel programs' are the generated frame theorems; the reference's is its generated run with the
  result dropped. The idealization rewrote nothing, so its statement is trivially true.
-/
import proofs.«161586_j65197603554154_2_alg».proof.Defs
import proofs.«161586_j65197603554154_2_alg».proof.Proof.Gen.Kernel
import proofs.«161586_j65197603554154_2_alg».proof.Proof.Gen.Kernel.Skeleton
import proofs.«161586_j65197603554154_2_alg».proof.Proof.Gen.Kernel.Launch
import proofs.«161586_j65197603554154_2_alg».proof.Proof.Gen.Kernel.Points
import proofs.«161586_j65197603554154_2_alg».proof.Proof.Gen.Kernel.Frame
import proofs.«161586_j65197603554154_2_alg».proof.Proof.Gen.KernelIdeal
import proofs.«161586_j65197603554154_2_alg».proof.Proof.Gen.KernelIdeal.Skeleton
import proofs.«161586_j65197603554154_2_alg».proof.Proof.Gen.KernelIdeal.Launch
import proofs.«161586_j65197603554154_2_alg».proof.Proof.Gen.KernelIdeal.Points
import proofs.«161586_j65197603554154_2_alg».proof.Proof.Gen.KernelIdeal.Frame
import proofs.«161586_j65197603554154_2_alg».proof.Proof.Gen.ReferenceIdeal
import proofs.«161586_j65197603554154_2_alg».proof.Proof.Gen.Pre_finite_inputs
import proofs.«161586_j65197603554154_2_alg».proof.Proof.Gen.ReferenceIdeal.Run
import proofs.«161586_j65197603554154_2_alg».proof.Proof.Gen.ReferenceIdeal.Read
import proofs.«161586_j65197603554154_2_alg».proof.Proof.LibOnlineSoftmax
import proofs.«161586_j65197603554154_2_alg».proof.Proof.PoolNet
import proofs.«161586_j65197603554154_2_alg».proof.Proof.PreFinite
import proofs.«161586_j65197603554154_2_alg».proof.Proof.RefSide
import proofs.«161586_j65197603554154_2_alg».proof.Proof.KernelResult
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the pooled values of arguments that agree. -/
theorem algebraic : Cert.algebraic_KernelIdeal_ReferenceIdeal := by
  intro m ρ m' ρ' hpre hagree
  have hF : ∀ c, Cert.KernelIdeal.Inv.Fin' m c := fun c =>
    Cert.Pre_finite_inputs.Real.finite_of_pre _ _ _ _ _ _ (hpre c)
  refine ⟨_, Cert.KernelIdeal.Result.run m ρ hF, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, (hagree c).1, (hagree c).2.1, (hagree c).2.2.1, (hagree c).2.2.2.1,
    (hagree c).2.2.2.2.1, (hagree c).2.2.2.2.2]
  funext i
  obtain ⟨u, e, rfl⟩ : ∃ (u : Fin 1) (e : Fin 768), i = ix2 u e := ⟨i 0, i 1, eq_ix2 i⟩
  obtain rfl : u = 0 := Fin.ext (by omega)
  exact Cert.ReferenceIdeal.RefValue.ref_result (hF c) e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
